-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x64 : Shape := ⟨2, ![100000, 64]⟩
abbrev S100000x16 : Shape := ⟨2, ![100000, 16]⟩
abbrev S64x64 : Shape := ⟨2, ![64, 64]⟩
abbrev S64 : Shape := ⟨1, ![64]⟩
abbrev S64x67 : Shape := ⟨2, ![64, 67]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x67 : S_.BroadcastsInDim S64x67 (![] : Fin 0 → Fin S64x67.rank)
  reducesTo_S64x67_S_d0_1 : S64x67.ReducesTo [0, 1] S_

variable [Facts]

def fn_part4 {F : FTy → Type} [FloatOps F] (main_arg15 : FVec F S64 .f32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg12 : FVec F S64 .f32) (main_arg13 : FVec F S64x64 .f32) (main_arg14 : FVec F S64 .f32) (main_arg15 : FVec F S64 .f32) (main_arg16 : FVec F S64 .f32) (main_arg17 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_v63 main_v67

def fn_part2 {F : FTy → Type} [FloatOps F] (main_arg8 : FVec F S64x67 .f32) (main_arg9 : FVec F S64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_v33 : IVec S_ 1) : IVec S_ 1 :=
  let main_v34 : FVec F S64x67 .f32 := Host.absf main_arg8
  let main_cst_12 : FVec F S_ .f32 := constant S_ .f32 0x7F800000#32
  let main_v35 : FVec F S64x67 .f32 := broadcastInDim S64x67 ![] bcast_S_S64x67 main_cst_12
  let main_v36 : IVec S64x67 1 := cmpf .olt main_v34 main_v35
  let main_c_13 : IVec S_ 1 := constantI S_ 1 1#1
  let main_v37 : IVec S_ 1 := (fun x v => Host.reduce IntOp.andi x v reducesTo_S64x67_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64 .f32) (main_arg7 : FVec F S64 .f32) (main_arg8 : FVec F S64x67 .f32) (main_arg9 : FVec F S64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x3 .f32) (main_arg1 : FVec F S100000x64 .f32) (main_arg2 : IVec S100000x16 32) (main_arg3 : FVec F S64x64 .f32) (main_arg4 : FVec F S64 .f32) (main_arg5 : FVec F S64 .f32) (main_arg6 : FVec F S64 .f32) (main_arg7 : FVec F S64 .f32) (main_arg8 : FVec F S64x67 .f32) (main_arg9 : FVec F S64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x3 : Shape := ⟨2, ![100000, 3]⟩
abbrev S100000x64 : Shape := ⟨2, ![100000, 64]⟩
abbrev S100000x16 : Shape := ⟨2, ![100000, 16]⟩
abbrev S64x64 : Shape := ⟨2, ![64, 64]⟩
abbrev S64 : Shape := ⟨1, ![64]⟩
abbrev S64x67 : Shape := ⟨2, ![64, 67]⟩
abbrev S1x64 : Shape := ⟨2, ![1, 64]⟩
abbrev S2000x64 : Shape := ⟨2, ![2000, 64]⟩
abbrev S_ : Shape := ⟨0, ![]⟩
abbrev S100000x16x1 : Shape := ⟨3, ![100000, 16, 1]⟩
abbrev S100000x16x3 : Shape := ⟨3, ![100000, 16, 3]⟩
abbrev S100000x1x3 : Shape := ⟨3, ![100000, 1, 3]⟩
abbrev S100000x16x64 : Shape := ⟨3, ![100000, 16, 64]⟩
abbrev S100000x16x67 : Shape := ⟨3, ![100000, 16, 67]⟩
abbrev S67x64 : Shape := ⟨2, ![67, 64]⟩
abbrev S1x1x64 : Shape := ⟨3, ![1, 1, 64]⟩
abbrev S1000x16x67 : Shape := ⟨3, ![1000, 16, 67]⟩
abbrev S1000x64 : Shape := ⟨2, ![1000, 64]⟩
abbrev S16000x67 : Shape := ⟨2, ![16000, 67]⟩
abbrev S16000x64 : Shape := ⟨2, ![16000, 64]⟩
abbrev S1000x16x64 : Shape := ⟨3, ![1000, 16, 64]⟩

abbrev nBuf : Space → Nat
  | .hbm => 55
  | .vmem => 25
  | .smem => 0
  | _ => 0

abbrev bufTy : (tb : Table) → Fin (tcTables nBuf tb) → BufTy
  | .hbm, ⟨0, _⟩ => ⟨S100000x3, .f32⟩
  | .hbm, ⟨1, _⟩ => ⟨S100000x64, .f32⟩
  | .hbm, ⟨2, _⟩ => ⟨S100000x16, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x67, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S100000x64, .f32⟩
  | .hbm, ⟨23, _⟩ => ⟨S_, .i32⟩
  | .hbm, ⟨24, _⟩ => ⟨S100000x16, .i32⟩
  | .hbm, ⟨25, _⟩ => ⟨S100000x16, .i1⟩
  | .hbm, ⟨26, _⟩ => ⟨S_, .i32⟩
  | .hbm, ⟨27, _⟩ => ⟨S100000x16, .i32⟩
  | .hbm, ⟨28, _⟩ => ⟨S100000x16, .i32⟩
  | .hbm, ⟨29, _⟩ => ⟨S100000x16, .i32⟩
  | .hbm, ⟨30, _⟩ => ⟨S100000x16x1, .i32⟩
  | .hbm, ⟨31, _⟩ => ⟨S100000x16x3, .f32⟩
  | .hbm, ⟨32, _⟩ => ⟨S100000x1x3, .f32⟩
  | .hbm, ⟨33, _⟩ => ⟨S100000x16x3, .f32⟩
  | .hbm, ⟨34, _⟩ => ⟨S100000x16x3, .f32⟩
  | .hbm, ⟨35, _⟩ => ⟨S_, .i32⟩
  | .hbm, ⟨36, _⟩ => ⟨S100000x16, .i32⟩
  | .hbm, ⟨37, _⟩ => ⟨S100000x16, .i1⟩
  | .hbm, ⟨38, _⟩ => ⟨S_, .i32⟩
  | .hbm, ⟨39, _⟩ => ⟨S100000x16, .i32⟩
  | .hbm, ⟨40, _⟩ => ⟨S100000x16, .i32⟩
  | .hbm, ⟨41, _⟩ => ⟨S100000x16, .i32⟩
  | .hbm, ⟨42, _⟩ => ⟨S100000x16x1, .i32⟩
  | .hbm, ⟨43, _⟩ => ⟨S100000x16x64, .f32⟩
  | .hbm, ⟨44, _⟩ => ⟨S100000x16x67, .f32⟩
  | .hbm, ⟨45, _⟩ => ⟨S67x64, .f32⟩
  | .hbm, ⟨46, _⟩ => ⟨S1x1x64, .f32⟩
  | .hbm, ⟨47, _⟩ => ⟨S1x1x64, .f32⟩
  | .hbm, ⟨48, _⟩ => ⟨S1x1x64, .f32⟩
  | .hbm, ⟨49, _⟩ => ⟨S1x1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S1000x16x67, .f32⟩
  | .local _ .vmem, ⟨10, _⟩ => ⟨S1000x16x67, .f32⟩
  | .local _ .vmem, ⟨11, _⟩ => ⟨S1000x64, .f32⟩
  | .local _ .vmem, ⟨12, _⟩ => ⟨S1000x64, .f32⟩
  | .local _ .vmem, ⟨13, _⟩ => ⟨S67x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1000x64, .f32⟩
  | .local _ .vmem, ⟨24, _⟩ => ⟨S1000x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem12_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x16x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S67x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S100000x3_S100000x1x3_0_2 : S100000x3.BroadcastsInDim S100000x1x3 (![0, 2] : Fin 2 → Fin S100000x1x3.rank)
  bcast_S100000x1x3_S100000x16x3_0_1_2 : S100000x1x3.BroadcastsInDim S100000x16x3 (![0, 1, 2] : Fin 3 → Fin S100000x16x3.rank)
  concatenates_S100000x16x3_S100000x16x64_S100000x16x67_d2 : Shape.Concatenates [S100000x16x3, S100000x16x64] S100000x16x67 2
  transposes_S64x67_S67x64_1_0 : S64x67.Transposes [1, 0] S67x64
  shapeCasts_S64_S1x1x64 : S64.ShapeCasts S1x1x64
  inb_S1000x16x67_S1000x16x67_0_0_0 : ∀ a, (![0, 0, 0] : Fin 3 → Nat) a + S1000x16x67.size a ≤ S1000x16x67.size a
  h_S1000x16x67 : 0 < S1000x16x67.numel
  shapeCasts_S1000x16x67_S1000x16x67 : S1000x16x67.ShapeCasts S1000x16x67
  shapeCasts_S1000x16x67_S16000x67 : S1000x16x67.ShapeCasts S16000x67
  inb_S67x64_S67x64_0_0 : ∀ a, (![0, 0] : Fin 2 → Nat) a + S67x64.size a ≤ S67x64.size a
  h_S67x64 : 0 < S67x64.numel
  shapeCasts_S67x64_S67x64 : S67x64.ShapeCasts S67x64
  shapeCasts_S16000x64_S1000x16x64 : S16000x64.ShapeCasts S1000x16x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S1000x16x64 : S1x1x64.Broadcasts S1000x16x64
  reduces_S1000x16x64_S1000x64 : S1000x16x64.Reduces [1] S1000x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  dot_S2000x64_S64x64_S2000x64_1_0_0_1_n_n_wf : DotDims.WF S2000x64 S64x64 S2000x64 [1] [0] [0] [1] [] []
  gather_S100000x3_S100000x16x1_S100000x16x3_2_0_n_n_0_2_13_wf : GatherDims.WF S100000x3 S100000x16x1 S100000x16x3 [2] [0] [] [0] [] 2 ![1, 3]
  gather_S100000x64_S100000x16x1_S100000x16x64_2_0_n_n_0_2_164_wf : GatherDims.WF S100000x64 S100000x16x1 S100000x16x64 [2] [0] [] [0] [] 2 ![1, 64]
  dot_S16000x67_S67x64_S16000x64_1_0_0_1_n_n_wf : DotDims.WF S16000x67 S67x64 S16000x64 [1] [0] [0] [1] [] []
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x16x67.size a ≤ S100000x16x67.size a
  hwx1_0 : ∀ i : grid1.Coords, EltTy.bits .f32 = 32 ∨ (Rect.block (s := S100000x16x67) S1000x16x67.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S100000x64.size a
  hwx1_1 : ∀ i : grid1.Coords, EltTy.bits .f32 = 32 ∨ (Rect.block (s := S100000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S67x64.size a ≤ S67x64.size a
  hwx1_2 : ∀ i : grid1.Coords, EltTy.bits .f32 = 32 ∨ (Rect.block (s := S67x64) S67x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S1x1x64.size a
  hwx1_3 : ∀ i : grid1.Coords, EltTy.bits .f32 = 32 ∨ (Rect.block (s := S1x1x64) S1x1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S1x1x64.size a
  hwx1_4 : ∀ i : grid1.Coords, EltTy.bits .f32 = 32 ∨ (Rect.block (s := S1x1x64) S1x1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1x64.size a ≤ S1x1x64.size a
  hwx1_5 : ∀ i : grid1.Coords, EltTy.bits .f32 = 32 ∨ (Rect.block (s := S1x1x64) S1x1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1x64.size a ≤ S1x1x64.size a
  hwx1_6 : ∀ i : grid1.Coords, EltTy.bits .f32 = 32 ∨ (Rect.block (s := S1x1x64) S1x1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1000x64.size a ≤ S100000x64.size a
  hwx1_12 : ∀ i : grid1.Coords, EltTy.bits .f32 = 32 ∨ (Rect.block (s := S100000x64) S1000x64.size (cc1_transform_12 i) (hinb1_12 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x3_S100000x16x1_S100000x16x3_2_0_n_n_0_2_13 : GatherDims S100000x3 S100000x16x1 S100000x16x3 where
  offsetDims := [2]
  collapsedSliceDims := [0]
  operandBatchingDims := []
  startIndicesBatchingDims := []
  startIndexMap := [0]
  indexVectorDim := 2
  sliceSizes := ![1, 3]
  wf := gather_S100000x3_S100000x16x1_S100000x16x3_2_0_n_n_0_2_13_wf
def gather_S100000x64_S100000x16x1_S100000x16x64_2_0_n_n_0_2_164 : GatherDims S100000x64 S100000x16x1 S100000x16x64 where
  offsetDims := [2]
  collapsedSliceDims := [0]
  operandBatchingDims := []
  startIndicesBatchingDims := []
  startIndexMap := [0]
  indexVectorDim := 2
  sliceSizes := ![1, 64]
  wf := gather_S100000x64_S100000x16x1_S100000x16x64_2_0_n_n_0_2_164_wf
def dot_S16000x67_S67x64_S16000x64_1_0_0_1_n_n : DotDims S16000x67 S67x64 S16000x64 where
  lhsContracting := [1]
  rhsContracting := [0]
  lhsNonContracting := [0]
  rhsNonContracting := [1]
  lhsBatch := []
  rhsBatch := []
  wf := dot_S16000x67_S67x64_S16000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_arg1) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S1000x16x67.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S67x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v32) S1000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x3 : Shape := ⟨2, ![100000, 3]⟩
abbrev S100000x64 : Shape := ⟨2, ![100000, 64]⟩
abbrev S100000x16 : Shape := ⟨2, ![100000, 16]⟩
abbrev S64x64 : Shape := ⟨2, ![64, 64]⟩
abbrev S64 : Shape := ⟨1, ![64]⟩
abbrev S64x67 : Shape := ⟨2, ![64, 67]⟩
abbrev S1x64 : Shape := ⟨2, ![1, 64]⟩
abbrev S_ : Shape := ⟨0, ![]⟩
abbrev S100000x16x1 : Shape := ⟨3, ![100000, 16, 1]⟩
abbrev S100000x16x3 : Shape := ⟨3, ![100000, 16, 3]⟩
abbrev S100000x1x3 : Shape := ⟨3, ![100000, 1, 3]⟩
abbrev S100000x16x64 : Shape := ⟨3, ![100000, 16, 64]⟩
abbrev S100000x16x67 : Shape := ⟨3, ![100000, 16, 67]⟩
abbrev S1x1x64 : Shape := ⟨3, ![1, 1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x64, .f32⟩
  | .hbm, ⟨2, _⟩ => ⟨S100000x16, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x67, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S100000x16, .i32⟩
  | .hbm, ⟨38, _⟩ => ⟨S100000x16, .i1⟩
  | .hbm, ⟨39, _⟩ => ⟨S_, .i32⟩
  | .hbm, ⟨40, _⟩ => ⟨S100000x16, .i32⟩
  | .hbm, ⟨41, _⟩ => ⟨S100000x16, .i32⟩
  | .hbm, ⟨42, _⟩ => ⟨S100000x16, .i32⟩
  | .hbm, ⟨43, _⟩ => ⟨S100000x16x1, .i32⟩
  | .hbm, ⟨44, _⟩ => ⟨S100000x16x3, .f32⟩
  | .hbm, ⟨45, _⟩ => ⟨S100000x1x3, .f32⟩
  | .hbm, ⟨46, _⟩ => ⟨S100000x16x3, .f32⟩
  | .hbm, ⟨47, _⟩ => ⟨S100000x16x3, .f32⟩
  | .hbm, ⟨48, _⟩ => ⟨S_, .i32⟩
  | .hbm, ⟨49, _⟩ => ⟨S100000x16, .i32⟩
  | .hbm, ⟨50, _⟩ => ⟨S100000x16, .i1⟩
  | .hbm, ⟨51, _⟩ => ⟨S_, .i32⟩
  | .hbm, ⟨52, _⟩ => ⟨S100000x16, .i32⟩
  | .hbm, ⟨53, _⟩ => ⟨S100000x16, .i32⟩
  | .hbm, ⟨54, _⟩ => ⟨S100000x16, .i32⟩
  | .hbm, ⟨55, _⟩ => ⟨S100000x16x1, .i32⟩
  | .hbm, ⟨56, _⟩ => ⟨S100000x16x64, .f32⟩
  | .hbm, ⟨57, _⟩ => ⟨S100000x16x67, .f32⟩
  | .hbm, ⟨58, _⟩ => ⟨S100000x16x64, .f32⟩
  | .hbm, ⟨59, _⟩ => ⟨S1x1x64, .f32⟩
  | .hbm, ⟨60, _⟩ => ⟨S100000x16x64, .f32⟩
  | .hbm, ⟨61, _⟩ => ⟨S100000x16x64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S1x1x64, .f32⟩
  | .hbm, ⟨68, _⟩ => ⟨S100000x16x64, .f32⟩
  | .hbm, ⟨69, _⟩ => ⟨S100000x16x64, .f32⟩
  | .hbm, ⟨70, _⟩ => ⟨S1x1x64, .f32⟩
  | .hbm, ⟨71, _⟩ => ⟨S100000x16x64, .f32⟩
  | .hbm, ⟨72, _⟩ => ⟨S100000x16x64, .f32⟩
  | .hbm, ⟨73, _⟩ => ⟨S_, .f32⟩
  | .hbm, ⟨74, _⟩ => ⟨S100000x16x64, .f32⟩
  | .hbm, ⟨75, _⟩ => ⟨S100000x16x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call0_cst : Ref sig .tc := ⟨.hbm, 33, rfl⟩
abbrev main_call0_v0 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_1 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_5 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S100000x3_S100000x1x3_0_2 : S100000x3.BroadcastsInDim S100000x1x3 (![0, 2] : Fin 2 → Fin S100000x1x3.rank)
  bcast_S100000x1x3_S100000x16x3_0_1_2 : S100000x1x3.BroadcastsInDim S100000x16x3 (![0, 1, 2] : Fin 3 → Fin S100000x16x3.rank)
  concatenates_S100000x16x3_S100000x16x64_S100000x16x67_d2 : Shape.Concatenates [S100000x16x3, S100000x16x64] S100000x16x67 2
  bcast_S64_S1x1x64_2 : S64.BroadcastsInDim S1x1x64 (![2] : Fin 1 → Fin S1x1x64.rank)
  bcast_S1x1x64_S100000x16x64_0_1_2 : S1x1x64.BroadcastsInDim S100000x16x64 (![0, 1, 2] : Fin 3 → Fin S100000x16x64.rank)
  bcast_S_S100000x16x64 : S_.BroadcastsInDim S100000x16x64 (![] : Fin 0 → Fin S100000x16x64.rank)
  reducesTo_S100000x16x64_S100000x64_d1 : S100000x16x64.ReducesTo [1] S100000x64
  h_S_ : 0 < S_.numel
  dot_S100000x64_S64x64_S100000x64_1_0_0_1_n_n_wf : DotDims.WF S100000x64 S64x64 S100000x64 [1] [0] [0] [1] [] []
  gather_S100000x3_S100000x16x1_S100000x16x3_2_0_n_n_0_2_13_wf : GatherDims.WF S100000x3 S100000x16x1 S100000x16x3 [2] [0] [] [0] [] 2 ![1, 3]
  gather_S100000x64_S100000x16x1_S100000x16x64_2_0_n_n_0_2_164_wf : GatherDims.WF S100000x64 S100000x16x1 S100000x16x64 [2] [0] [] [0] [] 2 ![1, 64]
  dot_S100000x16x67_S64x67_S100000x16x64_2_1_01_0_n_n_wf : DotDims.WF S100000x16x67 S64x67 S100000x16x64 [2] [1] [0, 1] [0] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x3_S100000x16x1_S100000x16x3_2_0_n_n_0_2_13 : GatherDims S100000x3 S100000x16x1 S100000x16x3 where
  offsetDims := [2]
  collapsedSliceDims := [0]
  operandBatchingDims := []
  startIndicesBatchingDims := []
  startIndexMap := [0]
  indexVectorDim := 2
  sliceSizes := ![1, 3]
  wf := gather_S100000x3_S100000x16x1_S100000x16x3_2_0_n_n_0_2_13_wf
def gather_S100000x64_S100000x16x1_S100000x16x64_2_0_n_n_0_2_164 : GatherDims S100000x64 S100000x16x1 S100000x16x64 where
  offsetDims := [2]
  collapsedSliceDims := [0]
  operandBatchingDims := []
  startIndicesBatchingDims := []
  startIndexMap := [0]
  indexVectorDim := 2
  sliceSizes := ![1, 64]
  wf := gather_S100000x64_S100000x16x1_S100000x16x64_2_0_n_n_0_2_164_wf
def dot_S100000x16x67_S64x67_S100000x16x64_2_1_01_0_n_n : DotDims S100000x16x67 S64x67 S100000x16x64 where
  lhsContracting := [2]
  rhsContracting := [1]
  lhsNonContracting := [0, 1]
  rhsNonContracting := [0]
  lhsBatch := []
  rhsBatch := []
  wf := dot_S100000x16x67_S64x67_S100000x16x64_2_1_01_0_n_n_wf

class Facts : Prop extends Facts₀ where

variable [Facts]
-- ==== Proof.Spec.lean ====
/-
  The network both programs compute, as plain functions on the extended reals.

  A point n has a feature row x[n, ·] (64 channels), a position p[n, ·] and 16 neighbours idx[n, ·].
  Stage one is a linear layer followed by an inference-mode batch normalisation and a rectifier:
    h[n, o] = relu (bn₁ o (∑ k, x[n, k] · w1[k, o])).
  The grouping step (not spelled here: both programs perform it by the same host operations) builds
    G[n, k, ·] = (p[idx[n,k]] − p[n]) ++ h[idx[n,k]]   (3 + 64 = 67 channels).
  Stage two is a 1×1 convolution over the 67 channels, batch normalisation, rectifier, a maximum over the
  16 neighbours, a second linear layer, batch normalisation, the residual x and a last rectifier:
    f[n, j]   = max over k of relu (bn₂ j (∑ c, G[n, k, c] · conv_w[j, c]))     (from −∞)
    out[n, o] = relu (bn₃ o (∑ j, f[n, j] · w3[j, o]) + x[n, o]).
  Batch normalisation of a value y at a channel with scale g, shift b, running mean m and variance v is
    (y − m) · (g · rsqrt (v + ε)) + b.
  The literals (ε, the rectifier's zero, the maximum's −∞) are kept as the float words both programs print.
-/
import Idealize.ShloMosaic.PureOps.Ideal
import Idealize.ShloMosaic.Lib.ValueIdx

noncomputable section

namespace Cert.Spec

open Idealize.ShloMosaic Idealize.ShloMosaic.ValueIdx

/-- f32[100000, 64]: features in and out. -/
abbrev SN64 : Shape := ⟨2, ![100000, 64]⟩
/-- f32[64, 64]: the two linear layers' weights, rows the input channel. -/
abbrev SW : Shape := ⟨2, ![64, 64]⟩
/-- f32[64]: a per-channel batch-norm parameter. -/
abbrev SC : Shape := ⟨1, ![64]⟩
/-- f32[64, 67]: the 1×1 convolution's weight, rows the output channel. -/
abbrev SCW : Shape := ⟨2, ![64, 67]⟩
/-- f32[100000, 16, 67]: the grouped neighbour features. -/
abbrev SG : Shape := ⟨3, ![100000, 16, 67]⟩

/-- The batch normalisations' ε, the float word both programs print. -/
def eps : EReal := Ideal.ofBits .f32 0x3727C5AC#32

/-- Batch normalisation of the value y at one channel: scale g, shift b, running mean m, running variance v. -/
def bn (g b m v y : EReal) : EReal := (y - m) * (g * Ideal.rsqrt (v + eps)) + b

/-- The rectifier, against the zero word both programs print. -/
def relu (y : EReal) : EReal := max y (Ideal.ofBits .f32 0x00000000#32)

/-- Stage one at point n, channel o. -/
def stage1At (x : SN64.Idx → EReal) (w : SW.Idx → EReal) (g b m v : SC.Idx → EReal) (n : Fin 100000) (o : Fin 64) : EReal :=
  relu (bn (g (ix1 o)) (b (ix1 o)) (m (ix1 o)) (v (ix1 o)) (∑ k : Fin 64, x (ix2 n k) * w (ix2 k o)))

/-- Stage one as an array. -/
def stage1 (x : SN64.Idx → EReal) (w : SW.Idx → EReal) (g b m v : SC.Idx → EReal) : SN64.Idx → EReal :=
  fun i => stage1At x w g b m v ⟨(i 0).val, (i 0).isLt⟩ ⟨(i 1).val, (i 1).isLt⟩

/-- The neighbourhood feature of point n, channel j: the maximum over the 16 neighbours, from −∞, of the rectified,
    normalised convolution. -/
def featAt (G : SG.Idx → EReal) (cw : SCW.Idx → EReal) (g b m v : SC.Idx → EReal) (n : Fin 100000) (j : Fin 64) : EReal :=
  (Finset.univ : Finset (Fin 16)).fold max (Ideal.ofBits .f32 0xFF800000#32)
    (fun k => relu (bn (g (ix1 j)) (b (ix1 j)) (m (ix1 j)) (v (ix1 j)) (∑ c : Fin 67, G (ix3 n k c) * cw (ix2 j c))))

/-- Stage two at point n, channel o. -/
def stage2At (G : SG.Idx → EReal) (x : SN64.Idx → EReal) (cw : SCW.Idx → EReal) (g2 b2 m2 v2 : SC.Idx → EReal)
    (w3 : SW.Idx → EReal) (g3 b3 m3 v3 : SC.Idx → EReal) (n : Fin 100000) (o : Fin 64) : EReal :=
  relu (bn (g3 (ix1 o)) (b3 (ix1 o)) (m3 (ix1 o)) (v3 (ix1 o))
      (∑ j : Fin 64, featAt G cw g2 b2 m2 v2 n j * w3 (ix2 j o)) + x (ix2 n o))

/-- Stage two as an array. -/
def stage2 (G : SG.Idx → EReal) (x : SN64.Idx → EReal) (cw : SCW.Idx → EReal) (g2 b2 m2 v2 : SC.Idx → EReal)
    (w3 : SW.Idx → EReal) (g3 b3 m3 v3 : SC.Idx → EReal) : SN64.Idx → EReal :=
  fun i => stage2At G x cw g2 b2 m2 v2 w3 g3 b3 m3 v3 ⟨(i 0).val, (i 0).isLt⟩ ⟨(i 1).val, (i 1).isLt⟩

theorem stage1_ix2 (x : SN64.Idx → EReal) (w : SW.Idx → EReal) (g b m v : SC.Idx → EReal) (n : Fin 100000) (o : Fin 64) :
    stage1 x w g b m v (ix2 n o) = stage1At x w g b m v n o := rfl

theorem stage2_ix2 (G : SG.Idx → EReal) (x : SN64.Idx → EReal) (cw : SCW.Idx → EReal) (g2 b2 m2 v2 : SC.Idx → EReal)
    (w3 : SW.Idx → EReal) (g3 b3 m3 v3 : SC.Idx → EReal) (n : Fin 100000) (o : Fin 64) :
    stage2 G x cw g2 b2 m2 v2 w3 g3 b3 m3 v3 (ix2 n o) = stage2At G x cw g2 b2 m2 v2 w3 g3 b3 m3 v3 n o := rfl

end Cert.Spec

end
-- ==== Proof.KRun.lean ====
/-
  The idealized kernel program's run, with its result named.

  The program is two kernel regions among host operations. Every execution of it ends with the result array
  holding what the last region's write-backs leave (the contents called `W4` at the result's reference), and with
  the argument arrays as launched: the run's last thread state holds every unscoped buffer at `W4`, so the
  result is read off it exactly as each argument is.
-/
import proofs.«108654_j1623497638706_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents the
    second region leaves at its reference, and the eighteen argument arrays end as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.KernelIdeal.KRun

end
-- ==== Proof.Mid.lean ====
/-
  The host operations between the two kernel regions: the grouping step.

  From the positions p : [100000, 3], the neighbour table idx : [100000, 16] and the first region's result
  h : [100000, 64] the host builds grouped : [100000, 16, 67]: a negative neighbour number is wrapped by adding
  100000, the positions and the rows of h are gathered at the neighbour numbers, the point's own position is
  subtracted from each gathered position, and the two are joined along the last axis. Here that array is only
  NAMED, as one function of (p, idx, h): neither the gathers nor the join is opened, because the reference builds
  it by the same operations from the same three arrays.
-/
import proofs.«108654_j1623497638706_1_alg».proof.Proof.Gen.KernelIdeal.Frame

set_option maxRecDepth 16384

noncomputable section

namespace Cert.KernelIdeal.Mid

open Cert.KernelIdeal Cert.KernelIdeal.Gen
open Idealize.ShloMosaic Idealize.ShloMosaic.TcCoe Idealize.SL.Sem

variable {F : FTy → Type} [FloatOps F]

/-- The neighbour numbers as the gathers take them: a negative entry wrapped by adding 100000, one trailing unit axis. -/
def neighbours (idx : (⟨S100000x16, .i32⟩ : BufTy).Contents (Elt F)) : (⟨S100000x16x1, .i32⟩ : BufTy).Contents (Elt F) :=
  broadcastInDim S100000x16x1 ![0, 1] bcast_S100000x16_S100000x16x1_0_1
    (select (cmpi .slt idx (broadcastInDim S100000x16 ![] bcast_S_S100000x16 (constantI S_ 32 0#32)))
      (addi idx (broadcastInDim S100000x16 ![] bcast_S_S100000x16 (constantI S_ 32 100000#32))) idx)

/-- The grouped array: relative positions of the 16 neighbours joined with their rows of h. -/
def grouped (p : (⟨S100000x3, .f32⟩ : BufTy).Contents (Elt F)) (idx : (⟨S100000x16, .i32⟩ : BufTy).Contents (Elt F)) (h : (⟨S100000x64, .f32⟩ : BufTy).Contents (Elt F)) :
    (⟨S100000x16x67, .f32⟩ : BufTy).Contents (Elt F) :=
  concatenate S100000x16x67 2
    [⟨S100000x16x3, subf (Host.gather gather_S100000x3_S100000x16x1_S100000x16x3_2_0_n_n_0_2_13 p (neighbours idx))
        (broadcastInDim S100000x16x3 ![0, 1, 2] bcast_S100000x1x3_S100000x16x3_0_1_2
          (broadcastInDim S100000x1x3 ![0, 2] bcast_S100000x3_S100000x1x3_0_2 p))⟩,
     ⟨S100000x16x64, Host.gather gather_S100000x64_S100000x16x1_S100000x16x64_2_0_n_n_0_2_164 h (neighbours idx)⟩]
    concatenates_S100000x16x3_S100000x16x64_S100000x16x67_d2

variable (m : (ℓ : Loc nD τ sig) → Buf (Elt F) ℓ) (ρ : Dev nD → PrngReg)

/-- The first region and the host operations before it leave the positions as launched. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- … and the neighbour table. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option maxHeartbeats 4000000 in
/-- When the second region is entered, its first operand holds the grouped array of the launched positions, the
    launched neighbour table and the first region's result. -/
theorem grouped_entry (c : Dev nD) :
    W3 m ρ c (Proc.devRef .tc main_v22)
      = grouped (m ((c : Thread nD τ).loc main_arg0)) (m ((c : Thread nD τ).loc main_arg2)) (W2 m ρ c (Proc.devRef .tc main_v4)) := by
  rw [← W2_main_arg0 m ρ c, ← W2_main_arg2 m ρ c]
  show StableHlo.after hostOps1 (W2 m ρ c) (Proc.devRef .tc main_v22) = _
  generalize W2 m ρ c = W
  unfold hostOps1
  after_results
  rfl

end Cert.KernelIdeal.Mid

end
-- ==== Proof.Bridge.lean ====
/-
  The grouping step is one function on both sides.

  The reference builds the grouped array [100000, 16, 67] from the positions, the neighbour table and ITS stage-one
  array by the same host operations, in the same order and with the same dimension records, as the kernel program
  builds it from the first region's result. So the reference's stage for that array is the kernel side's `grouped`
  of the reference's stage-one array: both unfold to the same term.
-/
import proofs.«108654_j1623497638706_1_alg».proof.Proof.Mid
import proofs.«108654_j1623497638706_1_alg».proof.Proof.Gen.ReferenceIdeal.Read

noncomputable section

namespace Cert.Proof.Bridge

open Idealize.ShloMosaic

/-- The reference's grouped array is the kernel side's grouping of the reference's stage-one array. -/
theorem grouped_ref (x0 : (⟨Cert.ReferenceIdeal.S100000x3, .f32⟩ : BufTy).Contents (Elt Ideal)) (x1 : (⟨Cert.ReferenceIdeal.S100000x64, .f32⟩ : BufTy).Contents (Elt Ideal))
    (x2 : (⟨Cert.ReferenceIdeal.S100000x16, .i32⟩ : BufTy).Contents (Elt Ideal)) (x3 : (⟨Cert.ReferenceIdeal.S64x64, .f32⟩ : BufTy).Contents (Elt Ideal))
    (x4 x5 x6 x7 : (⟨Cert.ReferenceIdeal.S64, .f32⟩ : BufTy).Contents (Elt Ideal)) :
    Cert.ReferenceIdeal.Read.val_main_v32 (F := Ideal) x0 x1 x2 x3 x4 x5 x6 x7
      = Cert.KernelIdeal.Mid.grouped (F := Ideal) x0 x2 (Cert.ReferenceIdeal.Read.val_main_v14 (F := Ideal) x1 x3 x4 x5 x6 x7) :=
  rfl

end Cert.Proof.Bridge

end
-- ==== Proof.RefStage1.lean ====
import proofs.«108654_j1623497638706_1_alg».proof.Proof.Gen.ReferenceIdeal.Read
import proofs.«108654_j1623497638706_1_alg».proof.Proof.Spec

/-!
  Stage one of the reference program, read index by index: at the point n and the channel o the host's
  chain  dot_general → subtract mean → multiply by (scale · rsqrt (variance + ε)) → add shift → maximum with zero
  is  relu (bn₁ o (∑ k, x[n, k] · w1[k, o])).
-/

noncomputable section

namespace Cert.ReferenceIdeal.RefValue

open Cert.ReferenceIdeal Cert.ReferenceIdeal.Gen Idealize.ShloMosaic Idealize.ShloMosaic.ValueIdx

/-- The row of the contraction: the left operand is read at (n, k). -/
theorem lidx_v0 (n : Fin 100000) (o : Fin 64) (k : Fin 64) :
    Read.lidx_main_v0 (ix2 n o) k = ix2 n k :=
  funext fun a => Fin.ext (by match a with | ⟨0, _⟩ => rfl | ⟨1, _⟩ => rfl)

/-- The column of the contraction: the right operand is read at (k, o). -/
theorem ridx_v0 (n : Fin 100000) (o : Fin 64) (k : Fin 64) :
    Read.ridx_main_v0 (ix2 n o) k = ix2 k o :=
  funext fun a => Fin.ext (by match a with | ⟨0, _⟩ => rfl | ⟨1, _⟩ => rfl)

/-- A per-channel vector broadcast along the points is read at the channel: the running mean. -/
theorem idx_v1 (n : Fin 100000) (o : Fin 64) :
    Read.idx_main_v1 (Read.idx_main_v2 (ix2 n o)) = ix1 o :=
  funext fun a => Fin.ext (by match a with | ⟨0, _⟩ => rfl)

/-- The same for the scale factor. -/
theorem idx_v8 (n : Fin 100000) (o : Fin 64) :
    Read.idx_main_v8 (Read.idx_main_v9 (ix2 n o)) = ix1 o :=
  funext fun a => Fin.ext (by match a with | ⟨0, _⟩ => rfl)

/-- The same for the shift. -/
theorem idx_v11 (n : Fin 100000) (o : Fin 64) :
    Read.idx_main_v11 (Read.idx_main_v12 (ix2 n o)) = ix1 o :=
  funext fun a => Fin.ext (by match a with | ⟨0, _⟩ => rfl)

/-- Stage one of the reference at the point n and the channel o. -/
theorem stage1_at (x1 : (⟨S100000x64, .f32⟩ : BufTy).Contents (Elt Ideal)) (x3 : (⟨S64x64, .f32⟩ : BufTy).Contents (Elt Ideal))
    (x4 x5 x6 x7 : (⟨S64, .f32⟩ : BufTy).Contents (Elt Ideal)) (n : Fin 100000) (o : Fin 64) :
    Read.val_main_v14 (F := Ideal) x1 x3 x4 x5 x6 x7 (ix2 n o) = Spec.stage1At x1 x3 x4 x5 x6 x7 n o := by
  rw [Read.val_main_v14_apply, Read.val_main_call0_v0_apply, Read.val_main_call0_cst_apply, Read.val_main_v13_apply,
    Read.val_main_v12_apply, Read.val_main_v11_apply, Read.val_main_v10_apply, Read.val_main_v9_apply, Read.val_main_v8_apply,
    Read.val_main_v7_apply, Read.val_main_v6_apply, Read.val_main_v5_apply, Read.val_main_v4_apply, Read.val_main_cst_apply,
    Read.val_main_v3_apply, Read.val_main_v2_apply, Read.val_main_v1_apply, Read.val_main_v0_apply]
  simp only [lidx_v0, ridx_v0, idx_v1, idx_v8, idx_v11, Ideal.ofBits_def, Ideal.addf_def, Ideal.subf_def, Ideal.mulf_def,
    Ideal.maximumf_def, Ideal.hostUnary_rsqrt_def, Spec.stage1At, Spec.relu, Spec.bn, Spec.eps]

/-- Stage one of the reference is the specification's stage one. -/
theorem stage1_eq (x1 : (⟨S100000x64, .f32⟩ : BufTy).Contents (Elt Ideal)) (x3 : (⟨S64x64, .f32⟩ : BufTy).Contents (Elt Ideal))
    (x4 x5 x6 x7 : (⟨S64, .f32⟩ : BufTy).Contents (Elt Ideal)) :
    Read.val_main_v14 (F := Ideal) x1 x3 x4 x5 x6 x7 = Spec.stage1 x1 x3 x4 x5 x6 x7 := by
  funext i
  obtain ⟨n, o, rfl⟩ : ∃ (n : Fin 100000) (o : Fin 64), i = ix2 n o := ⟨i 0, i 1, eq_ix2 i⟩
  rw [stage1_at, Spec.stage1_ix2]

end Cert.ReferenceIdeal.RefValue

end
-- ==== Proof.K1Pay.lean ====
/-
  The first kernel's arithmetic at one entry of its block.

  A block of the first kernel is 2000 feature rows x (64 channels each). The body multiplies the block by the
  64 x 64 weight w (a matrix product into a zero accumulator; the change of float format on the way in is the identity
  on extended reals), then normalises channel o with the four [1, 64] parameter rows (scale g, shift b, running mean m,
  running variance v) laid along every row, and rectifies:
      block'[r, o] = max ((∑ k, x[r, k] · w[k, o] − m[o]) · (g[o] · rsqrt (v[o] + ε)) + b[o]) 0.
  That is the specification's relu (bn …) of the row's product with column o of w.
-/
import proofs.«108654_j1623497638706_1_alg».proof.Proof.Gen.KernelIdeal.Skeleton
import proofs.«108654_j1623497638706_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.K1

open Idealize.ShloMosaic Idealize.ShloMosaic.ValueIdx Cert.KernelIdeal Cert.KernelIdeal.Gen

/-- The left operand's row coordinate is the output's row … -/
theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
/-- … and its column coordinate the contraction position. -/
theorem lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row coordinate is the contraction position … -/
theorem rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and its column coordinate the output's column. -/
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The left operand of the block's matrix product at output entry (r, o) and contraction position k is x[r, k]. -/
theorem lhs_at (r : Fin 2000) (o : Fin 64) (k : Fin 64) :
    dot_S2000x64_S64x64_S2000x64_1_0_0_1_n_n.lhsIdx (ix2 r o)
      ((contrEquiv1 dot_S2000x64_S64x64_S2000x64_1_0_0_1_n_n 64 rfl rfl).symm k) = ix2 r k := by
  have hk := contrEquiv1_symm_val dot_S2000x64_S64x64_S2000x64_1_0_0_1_n_n 64 rfl rfl k
  refine funext fun a => Fin.ext ?_
  match a with
  | ⟨0, _⟩ => exact lhs_row _ _
  | ⟨1, _⟩ => exact (lhs_col _ _).trans hk

/-- The right operand at output entry (r, o) and contraction position k is w[k, o]. -/
theorem rhs_at (r : Fin 2000) (o : Fin 64) (k : Fin 64) :
    dot_S2000x64_S64x64_S2000x64_1_0_0_1_n_n.rhsIdx (ix2 r o)
      ((contrEquiv1 dot_S2000x64_S64x64_S2000x64_1_0_0_1_n_n 64 rfl rfl).symm k) = ix2 k o := by
  have hk := contrEquiv1_symm_val dot_S2000x64_S64x64_S2000x64_1_0_0_1_n_n 64 rfl rfl k
  refine funext fun a => Fin.ext ?_
  match a with
  | ⟨0, _⟩ => exact (rhs_row _ _).trans hk
  | ⟨1, _⟩ => exact rhs_col _ _

/-- The block's matrix product into the zero accumulator, at entry (r, o): row r of the block against column o of w. -/
theorem product_at (l : FVec Ideal S2000x64 .bf16) (w : FVec Ideal S64x64 .bf16) (r : Fin 2000) (o : Fin 64) :
    matmul dot_S2000x64_S64x64_S2000x64_1_0_0_1_n_n none l w (constant (F := Ideal) S2000x64 .f32 0x00000000#32) (ix2 r o)
      = ∑ k : Fin 64, l (ix2 r k) * w (ix2 k o) := by
  show FloatOps.matmul dot_S2000x64_S64x64_S2000x64_1_0_0_1_n_n none l w (constant (F := Ideal) S2000x64 .f32 0x00000000#32) (ix2 r o) = _
  rw [Ideal.matmul_constant_zero_apply,
    ← Equiv.sum_comp (contrEquiv1 dot_S2000x64_S64x64_S2000x64_1_0_0_1_n_n 64 rfl rfl).symm]
  refine Finset.sum_congr rfl fun k _ => ?_
  rw [lhs_at r o k, rhs_at r o k]

/-- A [1, 64] parameter row laid along the 2000 rows reads, at (r, o), its channel o. -/
theorem row_at (p : FVec Ideal S1x64 .f32) (r : Fin 2000) (o : Fin 64) :
    broadcastTo S2000x64 p broadcasts_S1x64_S2000x64 (ix2 r o) = p (ix2 0 o) :=
  broadcastTo_1b_ab_apply p broadcasts_S1x64_S2000x64 r o

/-- The body's stored value at entry (r, o) of the block: the rectified, normalised product of row r with column o of
    the weight, the normalisation's parameters read at channel o of their one row. -/
theorem stage1_payload (v0 : Vec Ideal S2000x64 .f32) (v2 : Vec Ideal S64x64 .f32) (v5 v7 v9 v11 : Vec Ideal S1x64 .f32)
    (r : Fin 2000) (o : Fin 64) :
    Gen.k0_pay1 (F := Ideal) v0 v2 v5 v7 v9 v11 (ix2 r o)
      = Spec.relu (Spec.bn (v5 (ix2 0 o)) (v7 (ix2 0 o)) (v9 (ix2 0 o)) (v11 (ix2 0 o))
          (∑ k : Fin 64, v0 (ix2 r k) * v2 (ix2 k o))) := by
  unfold Gen.k0_pay1
  simp only [shapeCast_self]
  rw [maximumf_apply, addf_apply, mulf_apply, subf_apply, row_at, row_at, row_at, product_at]
  rfl

end Cert.KernelIdeal.K1

end
-- ==== Proof.K1Array.lean ====
/-
  From the first kernel's blocks to the whole [100000, 64] array it leaves.

  The first kernel runs over 50 grid points. Point t stages rows 2000·t … 2000·t + 1999 of the feature array x
  (all 64 channels), the whole 64 x 64 weight, and the four batch-norm parameter vectors, each presented as one
  row [1, 64] (a host reshape of the [64] argument, so its entry (0, o) is the argument's entry o). Its body writes
  the rectified, normalised product of its 2000 rows with the weight, and that block is written back to rows
  2000·t … 2000·t + 1999 of the output. Row n of the output is therefore written by point n / 2000, as row
  n mod 2000 of that point's block, and depends on row n of x only: the array ends holding stage one of the
  network, entry by entry.
-/
import proofs.«108654_j1623497638706_1_alg».proof.Proof.Gen.KernelIdeal.Frame
import proofs.«108654_j1623497638706_1_alg».proof.Proof.K1Pay
import proofs.«108654_j1623497638706_1_alg».proof.Proof.Spec
import Idealize.ShloMosaic.Lib.Pipeline.Value
import Idealize.ShloMosaic.Lib.ValueLayout
import Idealize.ShloMosaic.Lib.Tactic

noncomputable section

namespace Cert.KernelIdeal.K1

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The body's loads and its store start at the origin of their buffers. -/
theorem hz : (![0, 0] : Fin 2 → Nat) = fun _ => 0 := funext fun a => by fin_cases a <;> rfl

/-- Which block each window stages at grid point t: the feature window and the output window block t along the rows
    (and the only block along the channels); the weight and the four parameter rows their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- When the first kernel starts, the feature array is the argument x … -/
theorem entry_x (c : Dev nD) : Gen.V1 m ρ c main_arg1 = m ((c : Thread nD τ).loc main_arg1) := by
  dsimp only [Gen.V1, Gen.W1, Gen.hostOps0]; after_results
/-- … the weight the argument w1 … -/
theorem entry_w (c : Dev nD) : Gen.V1 m ρ c main_arg3 = m ((c : Thread nD τ).loc main_arg3) := by
  dsimp only [Gen.V1, Gen.W1, Gen.hostOps0]; after_results
/-- … and each parameter row the [64] argument recast as [1, 64]: the scale, … -/
theorem entry_g (c : Dev nD) : (Gen.V1 m ρ c main_v0 : S1x64.Idx → EReal)
    = shapeCast S1x64 (m ((c : Thread nD τ).loc main_arg4) : S64.Idx → EReal) shapeCasts_S64_S1x64 := by
  dsimp only [Gen.V1, Gen.W1, Gen.hostOps0]; after_results; rfl
/-- … the shift, … -/
theorem entry_b (c : Dev nD) : (Gen.V1 m ρ c main_v1 : S1x64.Idx → EReal)
    = shapeCast S1x64 (m ((c : Thread nD τ).loc main_arg5) : S64.Idx → EReal) shapeCasts_S64_S1x64 := by
  dsimp only [Gen.V1, Gen.W1, Gen.hostOps0]; after_results; rfl
/-- … the running mean … -/
theorem entry_mu (c : Dev nD) : (Gen.V1 m ρ c main_v2 : S1x64.Idx → EReal)
    = shapeCast S1x64 (m ((c : Thread nD τ).loc main_arg6) : S64.Idx → EReal) shapeCasts_S64_S1x64 := by
  dsimp only [Gen.V1, Gen.W1, Gen.hostOps0]; after_results; rfl
/-- … and the running variance. -/
theorem entry_var (c : Dev nD) : (Gen.V1 m ρ c main_v3 : S1x64.Idx → EReal)
    = shapeCast S1x64 (m ((c : Thread nD τ).loc main_arg7) : S64.Idx → EReal) shapeCasts_S64_S1x64 := by
  dsimp only [Gen.V1, Gen.W1, Gen.hostOps0]; after_results; rfl

/-- One entry of a block, over any blocks that are the stated pieces of the arrays: if the feature block's row r is row
    2000·n + r of X, the weight block is W, and the parameter rows read g, b, mu, v at their channel, then the body's value
    at entry j of the block is stage one of the network at the entry i of the array with row 2000·n + (j's row) and j's channel. -/
theorem block_entry (x0 : Vec Ideal S2000x64 .f32) (x1 : Vec Ideal S64x64 .f32) (x2 x3 x4 x5 : Vec Ideal S1x64 .f32)
    (X : Spec.SN64.Idx → EReal) (W : Spec.SW.Idx → EReal) (g b mu v : Spec.SC.Idx → EReal) (n : Nat)
    (h0 : ∀ (r : Fin 2000) (k : Fin 64) (i : Spec.SN64.Idx), (i 0).val = n * 2000 + r.val → (i 1).val = k.val → x0 (ix2 r k) = X i)
    (h1 : ∀ k o : Fin 64, x1 (ix2 k o) = W (ix2 k o))
    (h2 : ∀ o : Fin 64, x2 (ix2 0 o) = g (ix1 o)) (h3 : ∀ o : Fin 64, x3 (ix2 0 o) = b (ix1 o))
    (h4 : ∀ o : Fin 64, x4 (ix2 0 o) = mu (ix1 o)) (h5 : ∀ o : Fin 64, x5 (ix2 0 o) = v (ix1 o))
    (j : S2000x64.Idx) (i : Spec.SN64.Idx) (hi0 : (i 0).val = n * 2000 + (j 0).val) (hi1 : (i 1).val = (j 1).val) :
    k0_pay1 (F := Ideal) x0 x1 x2 x3 x4 x5 j = Spec.stage1 X W g b mu v i := by
  obtain ⟨r, o, rfl⟩ : ∃ (r : Fin 2000) (o : Fin 64), j = ix2 r o := ⟨j 0, j 1, eq_ix2 j⟩
  have ho : (⟨(i 1).val, (i 1).isLt⟩ : Fin 64) = o := Fin.ext hi1
  rw [stage1_payload, h2, h3, h4, h5]
  show _ = Spec.stage1At X W g b mu v ⟨(i 0).val, (i 0).isLt⟩ ⟨(i 1).val, (i 1).isLt⟩
  rw [ho]
  unfold Spec.stage1At
  refine congrArg Spec.relu (congrArg (Spec.bn _ _ _ _) (Finset.sum_congr rfl fun k _ => ?_))
  rw [h0 r k (ix2 ⟨(i 0).val, (i 0).isLt⟩ k) hi0 rfl, h1]

/-- Point t's feature block at (r, k) is x at row 2000·t + r, channel k. -/
theorem read_x (c : Dev nD) (t : Fin cfg0.N) (y : S2000x64.Idx) (i : Spec.SN64.Idx)
    (hi0 : (i 0).val = t.val * 2000 + (y 0).val) (hi1 : (i 1).val = (y 1).val) :
    (iblk0 (V1 m ρ) c 0 t : Vec Ideal S2000x64 .f32) y = (m ((c : Thread nD τ).loc main_arg1) : Spec.SN64.Idx → EReal) i := by
  obtain ⟨e0, e1, -⟩ := idx_facts t
  show V1 m ρ c main_arg1 (((cfg0.win 0).blk t).view.emb y) = _
  rw [entry_x]
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 64 + 1 * (y 1).val = (i 1).val; omega

/-- Point t's weight block is the whole weight. -/
theorem read_w (c : Dev nD) (t : Fin cfg0.N) (k o : Fin 64) :
    (iblk0 (V1 m ρ) c 1 t : Vec Ideal S64x64 .f32) (ix2 k o) = (m ((c : Thread nD τ).loc main_arg3) : Spec.SW.Idx → EReal) (ix2 k o) := by
  obtain ⟨-, -, e0, e1, -⟩ := idx_facts t
  show V1 m ρ c main_arg3 (((cfg0.win 1).blk t).view.emb (ix2 k o)) = _
  rw [entry_w]
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * o.val = o.val; omega

/-- Point t's scale row at channel o is the scale argument at o … -/
theorem read_g (c : Dev nD) (t : Fin cfg0.N) (o : Fin 64) :
    (iblk0 (V1 m ρ) c 2 t : Vec Ideal S1x64 .f32) (ix2 0 o) = (m ((c : Thread nD τ).loc main_arg4) : Spec.SC.Idx → EReal) (ix1 o) := by
  obtain ⟨-, -, -, -, e0, e1, -⟩ := idx_facts t
  show (V1 m ρ c main_v0 : S1x64.Idx → EReal) (((cfg0.win 2).blk t).view.emb (ix2 0 o)) = _
  rw [entry_g]
  refine Eq.trans (congrArg _ (funext fun a => Fin.ext ?_)) (shapeCast_a_1a_apply _ shapeCasts_S64_S1x64 (0 : Fin 1) o)
  match a with
  | ⟨0, _⟩ => show win0_2.index t (0 : Fin 2) * 1 + 1 * 0 = 0; omega
  | ⟨1, _⟩ => show win0_2.index t (1 : Fin 2) * 64 + 1 * o.val = o.val; omega

/-- … its shift row the shift argument … -/
theorem read_b (c : Dev nD) (t : Fin cfg0.N) (o : Fin 64) :
    (iblk0 (V1 m ρ) c 3 t : Vec Ideal S1x64 .f32) (ix2 0 o) = (m ((c : Thread nD τ).loc main_arg5) : Spec.SC.Idx → EReal) (ix1 o) := by
  obtain ⟨-, -, -, -, -, -, e0, e1, -⟩ := idx_facts t
  show (V1 m ρ c main_v1 : S1x64.Idx → EReal) (((cfg0.win 3).blk t).view.emb (ix2 0 o)) = _
  rw [entry_b]
  refine Eq.trans (congrArg _ (funext fun a => Fin.ext ?_)) (shapeCast_a_1a_apply _ shapeCasts_S64_S1x64 (0 : Fin 1) o)
  match a with
  | ⟨0, _⟩ => show win0_3.index t (0 : Fin 2) * 1 + 1 * 0 = 0; omega
  | ⟨1, _⟩ => show win0_3.index t (1 : Fin 2) * 64 + 1 * o.val = o.val; omega

/-- … its mean row the running-mean argument … -/
theorem read_mu (c : Dev nD) (t : Fin cfg0.N) (o : Fin 64) :
    (iblk0 (V1 m ρ) c 4 t : Vec Ideal S1x64 .f32) (ix2 0 o) = (m ((c : Thread nD τ).loc main_arg6) : Spec.SC.Idx → EReal) (ix1 o) := by
  obtain ⟨-, -, -, -, -, -, -, -, e0, e1, -⟩ := idx_facts t
  show (V1 m ρ c main_v2 : S1x64.Idx → EReal) (((cfg0.win 4).blk t).view.emb (ix2 0 o)) = _
  rw [entry_mu]
  refine Eq.trans (congrArg _ (funext fun a => Fin.ext ?_)) (shapeCast_a_1a_apply _ shapeCasts_S64_S1x64 (0 : Fin 1) o)
  match a with
  | ⟨0, _⟩ => show win0_4.index t (0 : Fin 2) * 1 + 1 * 0 = 0; omega
  | ⟨1, _⟩ => show win0_4.index t (1 : Fin 2) * 64 + 1 * o.val = o.val; omega

/-- … and its variance row the running-variance argument. -/
theorem read_var (c : Dev nD) (t : Fin cfg0.N) (o : Fin 64) :
    (iblk0 (V1 m ρ) c 5 t : Vec Ideal S1x64 .f32) (ix2 0 o) = (m ((c : Thread nD τ).loc main_arg7) : Spec.SC.Idx → EReal) (ix1 o) := by
  obtain ⟨-, -, -, -, -, -, -, -, -, -, e0, e1, -⟩ := idx_facts t
  show (V1 m ρ c main_v3 : S1x64.Idx → EReal) (((cfg0.win 5).blk t).view.emb (ix2 0 o)) = _
  rw [entry_var]
  refine Eq.trans (congrArg _ (funext fun a => Fin.ext ?_)) (shapeCast_a_1a_apply _ shapeCasts_S64_S1x64 (0 : Fin 1) o)
  match a with
  | ⟨0, _⟩ => show win0_5.index t (0 : Fin 2) * 1 + 1 * 0 = 0; omega
  | ⟨1, _⟩ => show win0_5.index t (1 : Fin 2) * 64 + 1 * o.val = o.val; omega

/-- Stage one of the network on core c's six arguments. -/
abbrev stage1Of (c : Dev nD) : Spec.SN64.Idx → EReal :=
  Spec.stage1 (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7))

/-- What point t writes back is block t of stage one: rows 2000·t … 2000·t + 1999 of it. -/
theorem flushed_eq (c : Dev nD) (t : Fin cfg0.N) :
    (dat0 (V1 m ρ) c).flushed 6 t = ((cfg0.win 6).blk t).view.read (Elt Ideal) (stage1Of m c) := by
  show (cfg0.win 6).cut (grid0.coords t) ((dat0 (V1 m ρ) c).after 6 t) = _
  rw [after0_6]
  unfold out0_6
  rw [View.canon_unit_zero hz]
  simp only [View.ld_unit_zero (S := S2000x64) hz, View.ld_unit_zero (S := S64x64) hz, View.ld_unit_zero (S := S1x64) hz]
  funext j
  show k0_pay1 (F := Ideal) (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) j = stage1Of m c (((cfg0.win 6).blk t).view.emb j)
  obtain ⟨-, -, -, -, -, -, -, -, -, -, -, -, e0, e1⟩ := idx_facts t
  exact block_entry (iblk0 (V1 m ρ) c 0 t) (iblk0 (V1 m ρ) c 1 t) (iblk0 (V1 m ρ) c 2 t) (iblk0 (V1 m ρ) c 3 t)
    (iblk0 (V1 m ρ) c 4 t) (iblk0 (V1 m ρ) c 5 t)
    (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) t.val
    (fun r k i h0 h1 => read_x m ρ c t (ix2 r k) i h0 h1) (read_w m ρ c t) (read_g m ρ c t) (read_b m ρ c t)
    (read_mu m ρ c t) (read_var m ρ c t) j (((cfg0.win 6).blk t).view.emb j)
    (by show win0_6.index t (0 : Fin 2) * 2000 + 1 * (j 0).val = t.val * 2000 + (j 0).val; omega)
    (by show win0_6.index t (1 : Fin 2) * 64 + 1 * (j 1).val = (j 1).val; omega)

/-- An entry of the output lies in point t's block iff each coordinate lies in the block's range on its axis. -/
theorem mem_blk (t : Fin cfg0.N) (i : S100000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v4).slice (win0_6.rect t)).set ↔ _
  rw [View.set_slice_whole, Rect.mem_set_unit]
  exact Iff.rfl

/-- Every entry of the output is written: row n by point n / 2000. -/
theorem cover (i : S100000x64.Idx) :
    ∃ t : Fin cfg0.N, (cfg0.win 6).flush t = true ∧ i ∈ ((cfg0.win 6).blk t).view.set := by
  have hN : cfg0.N = 50 := Gen.N_0
  have hi0 : (i 0).val < 100000 := (i 0).isLt
  have hi1 : (i 1).val < 64 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 64 ≤ (i 1).val ∧ (i 1).val < win0_6.index t (1 : Fin 2) * 64 + 64
    omega

/-- After the first kernel its output array holds stage one of the network of the arguments. -/
theorem stage1_array (c : Dev nD) :
    Gen.W2 (F := Ideal) m ρ c (Proc.devRef .tc main_v4)
      = Spec.stage1 (m ((c : Thread nD τ).loc main_arg1)) (m ((c : Thread nD τ).loc main_arg3)) (m ((c : Thread nD τ).loc main_arg4))
          (m ((c : Thread nD τ).loc main_arg5)) (m ((c : Thread nD τ).loc main_arg6)) (m ((c : Thread nD τ).loc main_arg7)) :=
  (Gen.W2_arr m ρ c 6).trans
    ((dat0 (V1 m ρ) c).arrAt_eq_of_cover 6 (stage1Of m c) (fun t _ => flushed_eq m ρ c t) cover)

end Cert.KernelIdeal.K1
end
-- ==== Proof.K2Pay.lean ====
/-
  The second kernel's two pure values, read at one point r and one channel o.

  The feature value: the 16 neighbour rows of point r (67 channels each) are laid out as rows r·16 + k of a
  [16000, 67] matrix and multiplied by the [67, 64] weight; regrouped by point, each entry is normalised with the
  per-channel parameters, rectified, and the maximum over the 16 neighbours is taken from −∞; the result is multiplied
  by the [64, 64] weight. At (r, o) this is
    ∑ j, (max over k of relu (bn j (∑ c, G[r, k, c] · W[c, j]))) · W3[j, o].
  The head value: the normalisation of that sum at channel o, plus the residual, rectified.
  Narrowing to the 16-bit format is the identity on the extended reals, and both products start from a zero accumulator.
-/
import proofs.«108654_j1623497638706_1_alg».proof.Proof.Gen.KernelIdeal.Skeleton
import proofs.«108654_j1623497638706_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen

variable {α : Type}

/-- Row r·16 + k of the flattened array: neighbour k of point r. -/
abbrev flatRow (r : Fin 1000) (k : Fin 16) : Fin 16000 := ⟨r.val * 16 + k.val, by omega⟩

/-- The [1000, 16, 67] array flattened to [16000, 67] reads, at row r·16 + k and column c, the operand at (r, k, c). -/
theorem flatten_apply (x : S1000x16x67.Idx → α) (h : S1000x16x67.ShapeCasts S16000x67) (r : Fin 1000) (k : Fin 16) (c : Fin 67) :
    shapeCast S16000x67 x h (ix2 (flatRow r k) c) = x (ix3 r k c) :=
  shapeCast_apply x h _ _ (by
    rw [Shape.rowMajor_val_three, Shape.rowMajor_val_two]
    rfl)

/-- The [16000, 64] array regrouped to [1000, 16, 64] reads, at (r, k, j), the operand at row r·16 + k and column j. -/
theorem regroup_apply (x : S16000x64.Idx → α) (h : S16000x64.ShapeCasts S1000x16x64) (r : Fin 1000) (k : Fin 16) (j : Fin 64) :
    shapeCast S1000x16x64 x h (ix3 r k j) = x (ix2 (flatRow r k) j) :=
  shapeCast_apply x h _ _ (by
    rw [Shape.rowMajor_val_three, Shape.rowMajor_val_two]
    rfl)

/-- A [1, 1, 64] array broadcast to [1000, 16, 64] reads, at (r, k, j), the operand's one row at j. -/
theorem spread_apply (x : S1x1x64.Idx → α) (h : S1x1x64.Broadcasts S1000x16x64) (r : Fin 1000) (k : Fin 16) (j : Fin 64) :
    broadcastTo S1000x16x64 x h (ix3 r k j) = x (ix3 (0 : Fin 1) (0 : Fin 1) j) := by
  refine broadcastTo_apply x h (ix3 r k j) (ix3 (0 : Fin 1) (0 : Fin 1) j) fun ax => ?_
  match ax with
  | ⟨0, _⟩ => rfl
  | ⟨1, _⟩ => rfl
  | ⟨2, _⟩ => rfl

/-! ## The two products at an index -/

theorem conv_lhs0 (i : S16000x64.Idx) (q : dot_S16000x67_S67x64_S16000x64_1_0_0_1_n_n.contr.Idx) :
    (dot_S16000x67_S67x64_S16000x64_1_0_0_1_n_n.lhsIdx i q 0).val = (i 0).val := by
  unfold DotDims.lhsIdx
  rw [dif_neg (show ¬(0 : Fin S16000x67.rank) ∈ dot_S16000x67_S67x64_S16000x64_1_0_0_1_n_n.lhsBatch by decide), dif_pos (show (0 : Fin S16000x67.rank) ∈ dot_S16000x67_S67x64_S16000x64_1_0_0_1_n_n.lhsNonContracting by decide)]
  rfl
theorem conv_rhs1 (i : S16000x64.Idx) (q : dot_S16000x67_S67x64_S16000x64_1_0_0_1_n_n.contr.Idx) :
    (dot_S16000x67_S67x64_S16000x64_1_0_0_1_n_n.rhsIdx i q 1).val = (i 1).val := by
  unfold DotDims.rhsIdx
  rw [dif_neg (show ¬(1 : Fin S67x64.rank) ∈ dot_S16000x67_S67x64_S16000x64_1_0_0_1_n_n.rhsBatch by decide), dif_pos (show (1 : Fin S67x64.rank) ∈ dot_S16000x67_S67x64_S16000x64_1_0_0_1_n_n.rhsNonContracting by decide)]
  rfl

/-- The 1×1 convolution as a product of the flattened rows with the [67, 64] weight, into a zero accumulator: at row n
    and output channel j, the sum over the 67 input channels. -/
theorem conv_apply {φ₁ φ₂ : FTy} (lhs : FVec Ideal S16000x67 φ₁) (rhs : FVec Ideal S67x64 φ₂) (n : Fin 16000) (j : Fin 64) :
    matmul dot_S16000x67_S67x64_S16000x64_1_0_0_1_n_n none lhs rhs (constant (F := Ideal) S16000x64 .f32 0x00000000#32) (ix2 n j)
      = ∑ c : Fin 67, lhs (ix2 n c) * rhs (ix2 c j) := by
  refine (Ideal.matmul_constant_zero_apply dot_S16000x67_S67x64_S16000x64_1_0_0_1_n_n none lhs rhs (ix2 n j)).trans ?_
  rw [← Equiv.sum_comp (contrEquiv1 dot_S16000x67_S67x64_S16000x64_1_0_0_1_n_n 67 rfl rfl).symm]
  refine Finset.sum_congr rfl fun c _ => ?_
  have hk := contrEquiv1_symm_val dot_S16000x67_S67x64_S16000x64_1_0_0_1_n_n 67 rfl rfl c
  have el : dot_S16000x67_S67x64_S16000x64_1_0_0_1_n_n.lhsIdx (ix2 n j) ((contrEquiv1 dot_S16000x67_S67x64_S16000x64_1_0_0_1_n_n 67 rfl rfl).symm c) = ix2 n c := funext fun a => Fin.ext (by
    match a with
    | ⟨0, _⟩ => exact conv_lhs0 _ _
    | ⟨1, _⟩ => exact (dot_S16000x67_S67x64_S16000x64_1_0_0_1_n_n.lhsIdx_val_of_single rfl _ _).trans hk)
  have er : dot_S16000x67_S67x64_S16000x64_1_0_0_1_n_n.rhsIdx (ix2 n j) ((contrEquiv1 dot_S16000x67_S67x64_S16000x64_1_0_0_1_n_n 67 rfl rfl).symm c) = ix2 c j := funext fun a => Fin.ext (by
    match a with
    | ⟨0, _⟩ => exact (dot_S16000x67_S67x64_S16000x64_1_0_0_1_n_n.rhsIdx_val_of_single rfl _ _).trans hk
    | ⟨1, _⟩ => exact conv_rhs1 _ _)
  rw [el, er]

theorem lin_lhs0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lin_rhs1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The second linear layer as a product with the [64, 64] weight into a zero accumulator: at point r and output
    channel o, the sum over the 64 feature channels. -/
theorem lin_apply {φ₁ φ₂ : FTy} (lhs : FVec Ideal S1000x64 φ₁) (rhs : FVec Ideal S64x64 φ₂) (r : Fin 1000) (o : Fin 64) :
    matmul dot_S1000x64_S64x64_S1000x64_1_0_0_1_n_n none lhs rhs (constant (F := Ideal) S1000x64 .f32 0x00000000#32) (ix2 r o)
      = ∑ j : Fin 64, lhs (ix2 r j) * rhs (ix2 j o) := by
  refine (Ideal.matmul_constant_zero_apply dot_S1000x64_S64x64_S1000x64_1_0_0_1_n_n none lhs rhs (ix2 r o)).trans ?_
  rw [← Equiv.sum_comp (contrEquiv1 dot_S1000x64_S64x64_S1000x64_1_0_0_1_n_n 64 rfl rfl).symm]
  refine Finset.sum_congr rfl fun c _ => ?_
  have hk := contrEquiv1_symm_val dot_S1000x64_S64x64_S1000x64_1_0_0_1_n_n 64 rfl rfl c
  have el : dot_S1000x64_S64x64_S1000x64_1_0_0_1_n_n.lhsIdx (ix2 r o) ((contrEquiv1 dot_S1000x64_S64x64_S1000x64_1_0_0_1_n_n 64 rfl rfl).symm c) = ix2 r c := funext fun a => Fin.ext (by
    match a with
    | ⟨0, _⟩ => exact lin_lhs0 _ _
    | ⟨1, _⟩ => exact (dot_S1000x64_S64x64_S1000x64_1_0_0_1_n_n.lhsIdx_val_of_single rfl _ _).trans hk)
  have er : dot_S1000x64_S64x64_S1000x64_1_0_0_1_n_n.rhsIdx (ix2 r o) ((contrEquiv1 dot_S1000x64_S64x64_S1000x64_1_0_0_1_n_n 64 rfl rfl).symm c) = ix2 c o := funext fun a => Fin.ext (by
    match a with
    | ⟨0, _⟩ => exact (dot_S1000x64_S64x64_S1000x64_1_0_0_1_n_n.rhsIdx_val_of_single rfl _ _).trans hk
    | ⟨1, _⟩ => exact lin_rhs1 _ _)
  rw [el, er]

/-! ## The maximum over the neighbours -/

/-- The reduced index (r, j) with neighbour k put back is (r, k, j). -/
theorem neighbourLift_ix3 (h : S1000x16x64.Reduces [1] S1000x64) (r : Fin 1000) (j : Fin 64) (k : Fin 16) :
    h.lift (ix2 r j) k = ix3 r k j := by
  funext c; apply Fin.ext
  match c with
  | ⟨0, _⟩ => rfl
  | ⟨1, _⟩ => rfl
  | ⟨2, _⟩ => rfl

/-- The maximum over axis 1 from the −∞ word, at (r, j): the fold of max over the 16 neighbours. -/
theorem neighbourMax_apply (src : FVec Ideal S1000x16x64 .f32) (h : S1000x16x64.Reduces [1] S1000x64)
    (hφ : FKind.Formats .f32) (hacc : (0xFF800000#32 : BitVec 32) = FKind.maximumf.neutral .f32 hφ) (r : Fin 1000) (j : Fin 64) :
    multiReduction (F := Ideal) .maximumf [1] S1000x64 src 0xFF800000#32 h hφ hacc (ix2 r j)
      = (Finset.univ : Finset (Fin 16)).fold max (Ideal.ofBits .f32 0xFF800000#32) (fun k => src (ix3 r k j)) := by
  refine (Ideal.multiReduction_maximumf_single src 0xFF800000#32 h hφ hacc (ix2 r j)).trans ?_
  have hf : (src ∘ h.lift (ix2 r j)) = fun k : Fin 16 => src (ix3 r k j) := funext fun k => congrArg src (neighbourLift_ix3 h r j k)
  exact congrArg (fun f => Finset.fold max (Ideal.ofBits .f32 0xFF800000#32) f (Finset.univ : Finset (Fin 16))) hf

/-! ## The two values -/

theorem stage2_features (v0 : Vec Ideal S1000x16x67 .f32) (v4 : Vec Ideal S67x64 .f32) (v9 v11 v13 v15 : Vec Ideal S1x1x64 .f32)
    (v31 : Vec Ideal S64x64 .f32) (r : Fin 1000) (o : Fin 64) :
    k1_pay2 (F := Ideal) v0 v4 v9 v11 v13 v15 v31 (ix2 r o)
      = ∑ j : Fin 64, (Finset.univ : Finset (Fin 16)).fold max (Ideal.ofBits .f32 0xFF800000#32)
          (fun k => Spec.relu (Spec.bn (v9 (ix3 0 0 j)) (v11 (ix3 0 0 j)) (v13 (ix3 0 0 j)) (v15 (ix3 0 0 j))
            (∑ c : Fin 67, v0 (ix3 r k c) * v4 (ix2 c j)))) * v31 (ix2 j o) := by
  unfold k1_pay2
  simp only [shapeCast_self]
  rw [lin_apply]
  refine Finset.sum_congr rfl fun j _ => ?_
  rw [truncf_apply, truncf_apply]
  refine congrArg (· * v31 (ix2 j o)) ?_
  refine (neighbourMax_apply _ _ _ _ r j).trans ?_
  refine congrArg (fun f => Finset.fold max (Ideal.ofBits .f32 0xFF800000#32) f (Finset.univ : Finset (Fin 16))) (funext fun k => ?_)
  rw [maximumf_apply, addf_apply, mulf_apply, subf_apply, broadcast_apply]
  rw [spread_apply, spread_apply, spread_apply, regroup_apply, conv_apply]
  simp only [truncf_apply, flatten_apply]
  rfl

theorem stage2_head (v33 : FVec Ideal S1000x64 .f32) (v34 v36 v38 v40 : Vec Ideal S1x64 .f32) (v52 : Vec Ideal S1000x64 .f32)
    (r : Fin 1000) (o : Fin 64) :
    k1_pay1 (F := Ideal) v33 v34 v36 v38 v40 v52 (ix2 r o)
      = Spec.relu (Spec.bn (v34 (ix2 0 o)) (v36 (ix2 0 o)) (v38 (ix2 0 o)) (v40 (ix2 0 o)) (v33 (ix2 r o)) + v52 (ix2 r o)) := by
  unfold k1_pay1
  simp only [shapeCast_self]
  rw [maximumf_apply, addf_apply, addf_apply, mulf_apply, subf_apply, broadcast_apply]
  rw [broadcastTo_1b_ab_apply, broadcastTo_1b_ab_apply, broadcastTo_1b_ab_apply]
  rw [mulf_apply]
  rfl

end Cert.KernelIdeal.KPay

end
-- ==== Proof.K2Block.lean ====
/-
  One block of the second stage, entry by entry.

  The second kernel region hands its body, at each grid point, a block of 1000 points: the grouped neighbour
  features G[r, k, ·] (16 neighbours, 67 channels), the residual rows x[r, ·], the convolution weight already
  transposed to [67, 64], the four batch-norm vectors of the convolution as [1, 1, 64], the second linear layer's
  weight and its four batch-norm vectors as [1, 64].  What the body stores for row r and channel o is
    relu (bn₃ o (∑ j, (max over k of relu (bn₂ j (∑ c, G[r, k, c] · cwT[c, j]))) · w3[j, o]) + x[r, o]):
  the feature sum of the matrix product feeds the head (batch norm, residual, rectifier) pointwise.
-/
import proofs.«108654_j1623497638706_1_alg».proof.Proof.Gen.KernelIdeal.Frame
import proofs.«108654_j1623497638706_1_alg».proof.Proof.K2Pay
import proofs.«108654_j1623497638706_1_alg».proof.Proof.Spec
import Idealize.ShloMosaic.Lib.ValueIdx
import Idealize.ShloMosaic.Lib.Pipeline.Value

noncomputable section

namespace Cert.KernelIdeal.Stage2

open Idealize.ShloMosaic Idealize.ShloMosaic.ValueIdx Cert.KernelIdeal Cert.KernelIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

/-- The block the body leaves in the output window's buffer, at row r and channel o, from the input blocks. -/
theorem out_block (x0 : Vec Ideal S1000x16x67 .f32) (x1 : Vec Ideal S1000x64 .f32) (x2 : Vec Ideal S67x64 .f32)
    (x3 x4 x5 x6 : Vec Ideal S1x1x64 .f32) (x7 : Vec Ideal S64x64 .f32) (x8 x9 x10 x11 : Vec Ideal S1x64 .f32)
    (r : Fin 1000) (o : Fin 64) :
    out1_12 (F := Ideal) x0 x1 x2 x3 x4 x5 x6 x7 x8 x9 x10 x11 (ix2 r o)
      = Spec.relu (Spec.bn (x8 (ix2 0 o)) (x9 (ix2 0 o)) (x10 (ix2 0 o)) (x11 (ix2 0 o))
          (∑ j : Fin 64, (Finset.univ : Finset (Fin 16)).fold max (Ideal.ofBits .f32 0xFF800000#32)
            (fun k => Spec.relu (Spec.bn (x3 (ix3 0 0 j)) (x4 (ix3 0 0 j)) (x5 (ix3 0 0 j)) (x6 (ix3 0 0 j))
              (∑ c : Fin 67, x0 (ix3 r k c) * x2 (ix2 c j)))) * x7 (ix2 j o))
          + x1 (ix2 r o)) := by
  unfold out1_12
  rw [View.canon_unit_zero zero2]
  simp only [View.ld_unit_zero (S := S1000x16x67) zero3, View.ld_unit_zero (S := S67x64) zero2,
    View.ld_unit_zero (S := S1x1x64) zero3, View.ld_unit_zero (S := S64x64) zero2,
    View.ld_unit_zero (S := S1x64) zero2, View.ld_unit_zero (S := S1000x64) zero2]
  rw [KPay.stage2_head, KPay.stage2_features]

/-- The same entry as the network's second stage at point n, channel o, once each input block is known to be the
    rows of point n of the array it was cut from: the grouped features' and the residual's rows of the block are the
    arrays' rows at n; the transposed convolution weight is read back through the transpose; the reshaped batch-norm
    vectors at their one row. -/
theorem block_value (G : Spec.SG.Idx → EReal) (x : Spec.SN64.Idx → EReal) (cw : Spec.SCW.Idx → EReal)
    (g2 b2 m2 v2 : Spec.SC.Idx → EReal) (w3 : Spec.SW.Idx → EReal) (g3 b3 m3 v3 : Spec.SC.Idx → EReal)
    (x0 : Vec Ideal S1000x16x67 .f32) (x1 : Vec Ideal S1000x64 .f32) (x2 : Vec Ideal S67x64 .f32)
    (x3 x4 x5 x6 : Vec Ideal S1x1x64 .f32) (x7 : Vec Ideal S64x64 .f32) (x8 x9 x10 x11 : Vec Ideal S1x64 .f32)
    (n : Fin 100000) (r : Fin 1000) (o : Fin 64)
    (h0 : ∀ (k : Fin 16) (ch : Fin 67), x0 (ix3 r k ch) = G (ix3 n k ch))
    (h1 : x1 (ix2 r o) = x (ix2 n o))
    (h2 : ∀ (ch : Fin 67) (j : Fin 64), x2 (ix2 ch j) = cw (ix2 j ch))
    (h3 : ∀ j : Fin 64, x3 (ix3 0 0 j) = g2 (ix1 j)) (h4 : ∀ j : Fin 64, x4 (ix3 0 0 j) = b2 (ix1 j))
    (h5 : ∀ j : Fin 64, x5 (ix3 0 0 j) = m2 (ix1 j)) (h6 : ∀ j : Fin 64, x6 (ix3 0 0 j) = v2 (ix1 j))
    (h7 : ∀ j : Fin 64, x7 (ix2 j o) = w3 (ix2 j o))
    (h8 : x8 (ix2 0 o) = g3 (ix1 o)) (h9 : x9 (ix2 0 o) = b3 (ix1 o))
    (h10 : x10 (ix2 0 o) = m3 (ix1 o)) (h11 : x11 (ix2 0 o) = v3 (ix1 o)) :
    out1_12 (F := Ideal) x0 x1 x2 x3 x4 x5 x6 x7 x8 x9 x10 x11 (ix2 r o)
      = Spec.stage2At G x cw g2 b2 m2 v2 w3 g3 b3 m3 v3 n o := by
  rw [out_block]
  unfold Spec.stage2At Spec.featAt
  simp only [h0, h1, h2, h3, h4, h5, h6, h7, h8, h9, h10, h11]

end Cert.KernelIdeal.Stage2

end
-- ==== Proof.K2Inputs.lean ====
/-
  What the second kernel region finds in the arrays its input windows stage.

  Between the two regions the host prepares the second region's operands.  The residual x and the second linear
  layer's weight w3 are arguments, untouched since the launch.  The convolution weight, an argument of shape [64, 67],
  is transposed to [67, 64]: entry (c, j) of the transposed array is entry (j, c) of the argument.  The eight
  batch-norm vectors, arguments of shape [64], are reshaped to [1, 1, 64] or [1, 64]: the entry at (0, 0, j), or
  (0, j), is entry j of the argument.  (The grouped neighbour array is also made there; it is read here as it stands.)
-/
import proofs.«108654_j1623497638706_1_alg».proof.Proof.Gen.KernelIdeal.Frame
import proofs.«108654_j1623497638706_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Stage2

open Idealize.ShloMosaic Idealize.ShloMosaic.TcCoe Idealize.ShloMosaic.ValueIdx Cert.KernelIdeal Cert.KernelIdeal.Gen
open Idealize.ShloMosaic.StableHlo

variable (m : (ℓ : Loc nD τ sig) → Buf (Elt Ideal) ℓ) (ρ : Dev nD → PrngReg)

/-- A vector given two leading unit axes reads, at (u, v, i), the vector's entry i. -/
theorem shapeCast_a_11a_apply {α : Type} {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-! ## The arguments at the first region's exit: as launched -/

theorem W2_arg8 (c : Dev nD) : Gen.W2 m ρ c (Proc.devRef .tc main_arg8) = m ((c : Thread nD τ).loc main_arg8) :=
  calc Gen.W2 m ρ c (Proc.devRef .tc main_arg8)
    _ = Gen.W1 m ρ c (Proc.devRef .tc main_arg8) := Gen.W2_of_ne m ρ c main_arg8 (by decide)
    _ = Gen.W0 m ρ c (Proc.devRef .tc main_arg8) := StableHlo.after_of_forall_not_mem (b := Proc.devRef .tc main_arg8) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg8) := rfl

theorem W2_arg9 (c : Dev nD) : Gen.W2 m ρ c (Proc.devRef .tc main_arg9) = m ((c : Thread nD τ).loc main_arg9) :=
  calc Gen.W2 m ρ c (Proc.devRef .tc main_arg9)
    _ = Gen.W1 m ρ c (Proc.devRef .tc main_arg9) := Gen.W2_of_ne m ρ c main_arg9 (by decide)
    _ = Gen.W0 m ρ c (Proc.devRef .tc main_arg9) := StableHlo.after_of_forall_not_mem (b := Proc.devRef .tc main_arg9) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg9) := rfl

theorem W2_arg10 (c : Dev nD) : Gen.W2 m ρ c (Proc.devRef .tc main_arg10) = m ((c : Thread nD τ).loc main_arg10) :=
  calc Gen.W2 m ρ c (Proc.devRef .tc main_arg10)
    _ = Gen.W1 m ρ c (Proc.devRef .tc main_arg10) := Gen.W2_of_ne m ρ c main_arg10 (by decide)
    _ = Gen.W0 m ρ c (Proc.devRef .tc main_arg10) := StableHlo.after_of_forall_not_mem (b := Proc.devRef .tc main_arg10) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg10) := rfl

theorem W2_arg11 (c : Dev nD) : Gen.W2 m ρ c (Proc.devRef .tc main_arg11) = m ((c : Thread nD τ).loc main_arg11) :=
  calc Gen.W2 m ρ c (Proc.devRef .tc main_arg11)
    _ = Gen.W1 m ρ c (Proc.devRef .tc main_arg11) := Gen.W2_of_ne m ρ c main_arg11 (by decide)
    _ = Gen.W0 m ρ c (Proc.devRef .tc main_arg11) := StableHlo.after_of_forall_not_mem (b := Proc.devRef .tc main_arg11) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg11) := rfl

theorem W2_arg12 (c : Dev nD) : Gen.W2 m ρ c (Proc.devRef .tc main_arg12) = m ((c : Thread nD τ).loc main_arg12) :=
  calc Gen.W2 m ρ c (Proc.devRef .tc main_arg12)
    _ = Gen.W1 m ρ c (Proc.devRef .tc main_arg12) := Gen.W2_of_ne m ρ c main_arg12 (by decide)
    _ = Gen.W0 m ρ c (Proc.devRef .tc main_arg12) := StableHlo.after_of_forall_not_mem (b := Proc.devRef .tc main_arg12) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg12) := rfl

theorem W2_arg14 (c : Dev nD) : Gen.W2 m ρ c (Proc.devRef .tc main_arg14) = m ((c : Thread nD τ).loc main_arg14) :=
  calc Gen.W2 m ρ c (Proc.devRef .tc main_arg14)
    _ = Gen.W1 m ρ c (Proc.devRef .tc main_arg14) := Gen.W2_of_ne m ρ c main_arg14 (by decide)
    _ = Gen.W0 m ρ c (Proc.devRef .tc main_arg14) := StableHlo.after_of_forall_not_mem (b := Proc.devRef .tc main_arg14) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg14) := rfl

theorem W2_arg15 (c : Dev nD) : Gen.W2 m ρ c (Proc.devRef .tc main_arg15) = m ((c : Thread nD τ).loc main_arg15) :=
  calc Gen.W2 m ρ c (Proc.devRef .tc main_arg15)
    _ = Gen.W1 m ρ c (Proc.devRef .tc main_arg15) := Gen.W2_of_ne m ρ c main_arg15 (by decide)
    _ = Gen.W0 m ρ c (Proc.devRef .tc main_arg15) := StableHlo.after_of_forall_not_mem (b := Proc.devRef .tc main_arg15) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg15) := rfl

theorem W2_arg16 (c : Dev nD) : Gen.W2 m ρ c (Proc.devRef .tc main_arg16) = m ((c : Thread nD τ).loc main_arg16) :=
  calc Gen.W2 m ρ c (Proc.devRef .tc main_arg16)
    _ = Gen.W1 m ρ c (Proc.devRef .tc main_arg16) := Gen.W2_of_ne m ρ c main_arg16 (by decide)
    _ = Gen.W0 m ρ c (Proc.devRef .tc main_arg16) := StableHlo.after_of_forall_not_mem (b := Proc.devRef .tc main_arg16) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg16) := rfl

theorem W2_arg17 (c : Dev nD) : Gen.W2 m ρ c (Proc.devRef .tc main_arg17) = m ((c : Thread nD τ).loc main_arg17) :=
  calc Gen.W2 m ρ c (Proc.devRef .tc main_arg17)
    _ = Gen.W1 m ρ c (Proc.devRef .tc main_arg17) := Gen.W2_of_ne m ρ c main_arg17 (by decide)
    _ = Gen.W0 m ρ c (Proc.devRef .tc main_arg17) := StableHlo.after_of_forall_not_mem (b := Proc.devRef .tc main_arg17) _ _ (List.forall_iff_forall_mem.mp (by
          simp only [Gen.hostOps0, List.Forall, StableHlo.reshape_writes, Finset.mem_singleton]
          repeat' apply And.intro
          all_goals exact StableHlo.devRef_ne_of_ne (by decide)))
    _ = m ((c : Thread nD τ).loc main_arg17) := rfl

/-! ## The arguments the second region stages directly -/

theorem V3_arg1 (c : Dev nD) : Gen.V3 m ρ c main_arg1 = m ((c : Thread nD τ).loc main_arg1) :=
  ((Gen.W4_arr m ρ c 1).trans (((Gen.dat1 (Gen.V3 m ρ) c).arrAt_in 1 rfl _).trans (Gen.A_eq1 (Gen.V3 m ρ) c 1))).symm.trans
    (Gen.W4_main_arg1 m ρ c)

theorem V3_arg13 (c : Dev nD) : Gen.V3 m ρ c main_arg13 = m ((c : Thread nD τ).loc main_arg13) :=
  ((Gen.W4_arr m ρ c 7).trans (((Gen.dat1 (Gen.V3 m ρ) c).arrAt_in 7 rfl _).trans (Gen.A_eq1 (Gen.V3 m ρ) c 7))).symm.trans
    (Gen.W4_main_arg13 m ρ c)

/-! ## The convolution weight, transposed -/

theorem V3_v23_apply (c : Dev nD) (ch : Fin 67) (j : Fin 64) :
    (Gen.V3 m ρ c main_v23 : S67x64.Idx → EReal) (ix2 ch j) = (m ((c : Thread nD τ).loc main_arg8) : S64x67.Idx → EReal) (ix2 j ch) := by
  have e : (Gen.V3 m ρ c main_v23 : S67x64.Idx → EReal)
      = transpose S67x64 [1, 0] (Gen.W2 m ρ c (Proc.devRef .tc main_arg8) : S64x67.Idx → EReal) transposes_S64x67_S67x64_1_0 := by
    dsimp only [Gen.V3, Gen.W3, Gen.hostOps1]
    after_results
  rw [e, W2_arg8 m ρ c]
  exact transpose_ix2_apply _ _ ch j

/-! ## The batch-norm vectors, reshaped -/

theorem V3_v24_apply (c : Dev nD) (j : Fin 64) :
    (Gen.V3 m ρ c main_v24 : S1x1x64.Idx → EReal) (ix3 0 0 j) = (m ((c : Thread nD τ).loc main_arg9) : S64.Idx → EReal) (ix1 j) := by
  have e : (Gen.V3 m ρ c main_v24 : S1x1x64.Idx → EReal)
      = shapeCast S1x1x64 (Gen.W2 m ρ c (Proc.devRef .tc main_arg9) : S64.Idx → EReal) shapeCasts_S64_S1x1x64 := by
    dsimp only [Gen.V3, Gen.W3, Gen.hostOps1]
    after_results
    rfl
  rw [e, W2_arg9 m ρ c]
  exact shapeCast_a_11a_apply _ _ 0 0 j

theorem V3_v25_apply (c : Dev nD) (j : Fin 64) :
    (Gen.V3 m ρ c main_v25 : S1x1x64.Idx → EReal) (ix3 0 0 j) = (m ((c : Thread nD τ).loc main_arg10) : S64.Idx → EReal) (ix1 j) := by
  have e : (Gen.V3 m ρ c main_v25 : S1x1x64.Idx → EReal)
      = shapeCast S1x1x64 (Gen.W2 m ρ c (Proc.devRef .tc main_arg10) : S64.Idx → EReal) shapeCasts_S64_S1x1x64 := by
    dsimp only [Gen.V3, Gen.W3, Gen.hostOps1]
    after_results
    rfl
  rw [e, W2_arg10 m ρ c]
  exact shapeCast_a_11a_apply _ _ 0 0 j

theorem V3_v26_apply (c : Dev nD) (j : Fin 64) :
    (Gen.V3 m ρ c main_v26 : S1x1x64.Idx → EReal) (ix3 0 0 j) = (m ((c : Thread nD τ).loc main_arg11) : S64.Idx → EReal) (ix1 j) := by
  have e : (Gen.V3 m ρ c main_v26 : S1x1x64.Idx → EReal)
      = shapeCast S1x1x64 (Gen.W2 m ρ c (Proc.devRef .tc main_arg11) : S64.Idx → EReal) shapeCasts_S64_S1x1x64 := by
    dsimp only [Gen.V3, Gen.W3, Gen.hostOps1]
    after_results
    rfl
  rw [e, W2_arg11 m ρ c]
  exact shapeCast_a_11a_apply _ _ 0 0 j

theorem V3_v27_apply (c : Dev nD) (j : Fin 64) :
    (Gen.V3 m ρ c main_v27 : S1x1x64.Idx → EReal) (ix3 0 0 j) = (m ((c : Thread nD τ).loc main_arg12) : S64.Idx → EReal) (ix1 j) := by
  have e : (Gen.V3 m ρ c main_v27 : S1x1x64.Idx → EReal)
      = shapeCast S1x1x64 (Gen.W2 m ρ c (Proc.devRef .tc main_arg12) : S64.Idx → EReal) shapeCasts_S64_S1x1x64 := by
    dsimp only [Gen.V3, Gen.W3, Gen.hostOps1]
    after_results
    rfl
  rw [e, W2_arg12 m ρ c]
  exact shapeCast_a_11a_apply _ _ 0 0 j

theorem V3_v28_apply (c : Dev nD) (o : Fin 64) :
    (Gen.V3 m ρ c main_v28 : S1x64.Idx → EReal) (ix2 0 o) = (m ((c : Thread nD τ).loc main_arg14) : S64.Idx → EReal) (ix1 o) := by
  have e : (Gen.V3 m ρ c main_v28 : S1x64.Idx → EReal)
      = shapeCast S1x64 (Gen.W2 m ρ c (Proc.devRef .tc main_arg14) : S64.Idx → EReal) shapeCasts_S64_S1x64 := by
    dsimp only [Gen.V3, Gen.W3, Gen.hostOps1]
    after_results
    rfl
  rw [e, W2_arg14 m ρ c]
  exact shapeCast_a_1a_apply _ _ 0 o

theorem V3_v29_apply (c : Dev nD) (o : Fin 64) :
    (Gen.V3 m ρ c main_v29 : S1x64.Idx → EReal) (ix2 0 o) = (m ((c : Thread nD τ).loc main_arg15) : S64.Idx → EReal) (ix1 o) := by
  have e : (Gen.V3 m ρ c main_v29 : S1x64.Idx → EReal)
      = shapeCast S1x64 (Gen.W2 m ρ c (Proc.devRef .tc main_arg15) : S64.Idx → EReal) shapeCasts_S64_S1x64 := by
    dsimp only [Gen.V3, Gen.W3, Gen.hostOps1]
    after_results
    rfl
  rw [e, W2_arg15 m ρ c]
  exact shapeCast_a_1a_apply _ _ 0 o

theorem V3_v30_apply (c : Dev nD) (o : Fin 64) :
    (Gen.V3 m ρ c main_v30 : S1x64.Idx → EReal) (ix2 0 o) = (m ((c : Thread nD τ).loc main_arg16) : S64.Idx → EReal) (ix1 o) := by
  have e : (Gen.V3 m ρ c main_v30 : S1x64.Idx → EReal)
      = shapeCast S1x64 (Gen.W2 m ρ c (Proc.devRef .tc main_arg16) : S64.Idx → EReal) shapeCasts_S64_S1x64 := by
    dsimp only [Gen.V3, Gen.W3, Gen.hostOps1]
    after_results
    rfl
  rw [e, W2_arg16 m ρ c]
  exact shapeCast_a_1a_apply _ _ 0 o

theorem V3_v31_apply (c : Dev nD) (o : Fin 64) :
    (Gen.V3 m ρ c main_v31 : S1x64.Idx → EReal) (ix2 0 o) = (m ((c : Thread nD τ).loc main_arg17) : S64.Idx → EReal) (ix1 o) := by
  have e : (Gen.V3 m ρ c main_v31 : S1x64.Idx → EReal)
      = shapeCast S1x64 (Gen.W2 m ρ c (Proc.devRef .tc main_arg17) : S64.Idx → EReal) shapeCasts_S64_S1x64 := by
    dsimp only [Gen.V3, Gen.W3, Gen.hostOps1]
    after_results
    rfl
  rw [e, W2_arg17 m ρ c]
  exact shapeCast_a_1a_apply _ _ 0 o

end Cert.KernelIdeal.Stage2

end
-- ==== Proof.K2Reads.lean ====
/-
  The blocks the second kernel region's body is handed, as rows of the arrays.

  The region's grid has 100 points; point t works on the 1000 points t·1000 … t·1000 + 999.  The grouped
  neighbour features and the residual are cut into blocks of 1000 rows along their first axis, so row r of point
  t's block is row t·1000 + r of the array, the other coordinates unchanged.  The ten parameter arrays are staged
  whole: every point's block of them is the array itself.
-/
import proofs.«108654_j1623497638706_1_alg».proof.Proof.Gen.KernelIdeal.Frame
import proofs.«108654_j1623497638706_1_alg».proof.Proof.Spec
import proofs.«108654_j1623497638706_1_alg».proof.Proof.K2Inputs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Stage2

open Idealize.ShloMosaic Idealize.ShloMosaic.TcCoe Idealize.ShloMosaic.ValueIdx Cert.KernelIdeal Cert.KernelIdeal.Gen
open Idealize.ShloMosaic.StableHlo

variable (m : (ℓ : Loc nD τ sig) → Buf (Elt Ideal) ℓ) (ρ : Dev nD → PrngReg)

/-- The global row of row r of point t's block. -/
def row (t : Fin cfg1.N) (r : Fin 1000) : Fin 100000 :=
  ⟨t.val * 1000 + r.val, by have ht := t.isLt; have hN : cfg1.N = 100 := Gen.N_1; have hr := r.isLt; omega⟩

theorem row_val (t : Fin cfg1.N) (r : Fin 1000) : (row t r).val = t.val * 1000 + r.val := rfl

/-! ## The printed index maps, decided over the grid's 100 points -/

theorem index0 : ∀ t : Fin cfg1.N, win1_0.index t (0 : Fin 3) = t.val ∧ win1_0.index t (1 : Fin 3) = 0 ∧ win1_0.index t (2 : Fin 3) = 0 :=
  (by decide +kernel : ∀ t : Fin grid1.N, _)
theorem index1 : ∀ t : Fin cfg1.N, win1_1.index t (0 : Fin 2) = t.val ∧ win1_1.index t (1 : Fin 2) = 0 :=
  (by decide +kernel : ∀ t : Fin grid1.N, _)
theorem index2 : ∀ t : Fin cfg1.N, win1_2.index t (0 : Fin 2) = 0 ∧ win1_2.index t (1 : Fin 2) = 0 :=
  (by decide +kernel : ∀ t : Fin grid1.N, _)
theorem index3 : ∀ t : Fin cfg1.N, win1_3.index t (0 : Fin 3) = 0 ∧ win1_3.index t (1 : Fin 3) = 0 ∧ win1_3.index t (2 : Fin 3) = 0 :=
  (by decide +kernel : ∀ t : Fin grid1.N, _)
theorem index4 : ∀ t : Fin cfg1.N, win1_4.index t (0 : Fin 3) = 0 ∧ win1_4.index t (1 : Fin 3) = 0 ∧ win1_4.index t (2 : Fin 3) = 0 :=
  (by decide +kernel : ∀ t : Fin grid1.N, _)
theorem index5 : ∀ t : Fin cfg1.N, win1_5.index t (0 : Fin 3) = 0 ∧ win1_5.index t (1 : Fin 3) = 0 ∧ win1_5.index t (2 : Fin 3) = 0 :=
  (by decide +kernel : ∀ t : Fin grid1.N, _)
theorem index6 : ∀ t : Fin cfg1.N, win1_6.index t (0 : Fin 3) = 0 ∧ win1_6.index t (1 : Fin 3) = 0 ∧ win1_6.index t (2 : Fin 3) = 0 :=
  (by decide +kernel : ∀ t : Fin grid1.N, _)
theorem index7 : ∀ t : Fin cfg1.N, win1_7.index t (0 : Fin 2) = 0 ∧ win1_7.index t (1 : Fin 2) = 0 :=
  (by decide +kernel : ∀ t : Fin grid1.N, _)
theorem index8 : ∀ t : Fin cfg1.N, win1_8.index t (0 : Fin 2) = 0 ∧ win1_8.index t (1 : Fin 2) = 0 :=
  (by decide +kernel : ∀ t : Fin grid1.N, _)
theorem index9 : ∀ t : Fin cfg1.N, win1_9.index t (0 : Fin 2) = 0 ∧ win1_9.index t (1 : Fin 2) = 0 :=
  (by decide +kernel : ∀ t : Fin grid1.N, _)
theorem index10 : ∀ t : Fin cfg1.N, win1_10.index t (0 : Fin 2) = 0 ∧ win1_10.index t (1 : Fin 2) = 0 :=
  (by decide +kernel : ∀ t : Fin grid1.N, _)
theorem index11 : ∀ t : Fin cfg1.N, win1_11.index t (0 : Fin 2) = 0 ∧ win1_11.index t (1 : Fin 2) = 0 :=
  (by decide +kernel : ∀ t : Fin grid1.N, _)

/-! ## The two row-blocked inputs -/

/-- Row r of point t's block of the grouped neighbour features is row t·1000 + r of the grouped array. -/
theorem blk0_apply (c : Dev nD) (t : Fin cfg1.N) (r : Fin 1000) (k : Fin 16) (ch : Fin 67) :
    (Gen.iblk1 (Gen.V3 m ρ) c 0 t : Vec Ideal S1000x16x67 .f32) (ix3 r k ch)
      = (Gen.W3 m ρ c (Proc.devRef .tc main_v22) : S100000x16x67.Idx → EReal) (ix3 (row t r) k ch) := by
  obtain ⟨e0, e1, e2⟩ := index0 t
  unfold Gen.iblk1
  rw [View.read_apply]
  show Gen.V3 m ρ c main_v22 _ = Gen.W3 m ρ c (Proc.devRef .tc main_v22) _
  refine congrArg (Gen.W3 m ρ c (Proc.devRef .tc main_v22)) (funext fun a => Fin.ext ?_)
  match a with
  | ⟨0, _⟩ => show win1_0.index t (0 : Fin 3) * 1000 + 1 * r.val = t.val * 1000 + r.val; rw [e0]; omega
  | ⟨1, _⟩ => show win1_0.index t (1 : Fin 3) * 16 + 1 * k.val = k.val; rw [e1]; omega
  | ⟨2, _⟩ => show win1_0.index t (2 : Fin 3) * 67 + 1 * ch.val = ch.val; rw [e2]; omega

/-- Row r of point t's block of the residual is row t·1000 + r of the argument. -/
theorem blk1_apply (c : Dev nD) (t : Fin cfg1.N) (r : Fin 1000) (o : Fin 64) :
    (Gen.iblk1 (Gen.V3 m ρ) c 1 t : Vec Ideal S1000x64 .f32) (ix2 r o)
      = (m ((c : Thread nD τ).loc main_arg1) : S100000x64.Idx → EReal) (ix2 (row t r) o) := by
  obtain ⟨e0, e1⟩ := index1 t
  rw [← V3_arg1 m ρ c]
  unfold Gen.iblk1
  rw [View.read_apply]
  show Gen.V3 m ρ c main_arg1 _ = Gen.V3 m ρ c main_arg1 _
  refine congrArg (Gen.V3 m ρ c main_arg1) (funext fun a => Fin.ext ?_)
  match a with
  | ⟨0, _⟩ => show win1_1.index t (0 : Fin 2) * 1000 + 1 * r.val = t.val * 1000 + r.val; rw [e0]; omega
  | ⟨1, _⟩ => show win1_1.index t (1 : Fin 2) * 64 + 1 * o.val = o.val; rw [e1]; omega

/-! ## The parameter arrays, staged whole -/

/-- Every point's block of the transposed convolution weight reads the argument through the transpose. -/
theorem blk2_apply (c : Dev nD) (t : Fin cfg1.N) (ch : Fin 67) (j : Fin 64) :
    (Gen.iblk1 (Gen.V3 m ρ) c 2 t : Vec Ideal S67x64 .f32) (ix2 ch j)
      = (m ((c : Thread nD τ).loc main_arg8) : S64x67.Idx → EReal) (ix2 j ch) := by
  obtain ⟨e0, e1⟩ := index2 t
  rw [← V3_v23_apply m ρ c ch j]
  unfold Gen.iblk1
  rw [View.read_apply]
  show Gen.V3 m ρ c main_v23 _ = Gen.V3 m ρ c main_v23 _
  refine congrArg (Gen.V3 m ρ c main_v23) (funext fun a => Fin.ext ?_)
  match a with
  | ⟨0, _⟩ => show win1_2.index t (0 : Fin 2) * 67 + 1 * ch.val = ch.val; rw [e0]; omega
  | ⟨1, _⟩ => show win1_2.index t (1 : Fin 2) * 64 + 1 * j.val = j.val; rw [e1]; omega

/-- Every point's block of a reshaped batch-norm vector of the convolution reads the argument's entry. -/
theorem blk3_apply (c : Dev nD) (t : Fin cfg1.N) (j : Fin 64) :
    (Gen.iblk1 (Gen.V3 m ρ) c 3 t : Vec Ideal S1x1x64 .f32) (ix3 0 0 j)
      = (m ((c : Thread nD τ).loc main_arg9) : S64.Idx → EReal) (ix1 j) := by
  obtain ⟨e0, e1, e2⟩ := index3 t
  rw [← V3_v24_apply m ρ c j]
  unfold Gen.iblk1
  rw [View.read_apply]
  show Gen.V3 m ρ c main_v24 _ = Gen.V3 m ρ c main_v24 _
  refine congrArg (Gen.V3 m ρ c main_v24) (funext fun a => Fin.ext ?_)
  match a with
  | ⟨0, _⟩ => show win1_3.index t (0 : Fin 3) * 1 + 1 * 0 = 0; rw [e0]
  | ⟨1, _⟩ => show win1_3.index t (1 : Fin 3) * 1 + 1 * 0 = 0; rw [e1]
  | ⟨2, _⟩ => show win1_3.index t (2 : Fin 3) * 64 + 1 * j.val = j.val; rw [e2]; omega

/-- Every point's block of a reshaped batch-norm vector of the convolution reads the argument's entry. -/
theorem blk4_apply (c : Dev nD) (t : Fin cfg1.N) (j : Fin 64) :
    (Gen.iblk1 (Gen.V3 m ρ) c 4 t : Vec Ideal S1x1x64 .f32) (ix3 0 0 j)
      = (m ((c : Thread nD τ).loc main_arg10) : S64.Idx → EReal) (ix1 j) := by
  obtain ⟨e0, e1, e2⟩ := index4 t
  rw [← V3_v25_apply m ρ c j]
  unfold Gen.iblk1
  rw [View.read_apply]
  show Gen.V3 m ρ c main_v25 _ = Gen.V3 m ρ c main_v25 _
  refine congrArg (Gen.V3 m ρ c main_v25) (funext fun a => Fin.ext ?_)
  match a with
  | ⟨0, _⟩ => show win1_4.index t (0 : Fin 3) * 1 + 1 * 0 = 0; rw [e0]
  | ⟨1, _⟩ => show win1_4.index t (1 : Fin 3) * 1 + 1 * 0 = 0; rw [e1]
  | ⟨2, _⟩ => show win1_4.index t (2 : Fin 3) * 64 + 1 * j.val = j.val; rw [e2]; omega

/-- Every point's block of a reshaped batch-norm vector of the convolution reads the argument's entry. -/
theorem blk5_apply (c : Dev nD) (t : Fin cfg1.N) (j : Fin 64) :
    (Gen.iblk1 (Gen.V3 m ρ) c 5 t : Vec Ideal S1x1x64 .f32) (ix3 0 0 j)
      = (m ((c : Thread nD τ).loc main_arg11) : S64.Idx → EReal) (ix1 j) := by
  obtain ⟨e0, e1, e2⟩ := index5 t
  rw [← V3_v26_apply m ρ c j]
  unfold Gen.iblk1
  rw [View.read_apply]
  show Gen.V3 m ρ c main_v26 _ = Gen.V3 m ρ c main_v26 _
  refine congrArg (Gen.V3 m ρ c main_v26) (funext fun a => Fin.ext ?_)
  match a with
  | ⟨0, _⟩ => show win1_5.index t (0 : Fin 3) * 1 + 1 * 0 = 0; rw [e0]
  | ⟨1, _⟩ => show win1_5.index t (1 : Fin 3) * 1 + 1 * 0 = 0; rw [e1]
  | ⟨2, _⟩ => show win1_5.index t (2 : Fin 3) * 64 + 1 * j.val = j.val; rw [e2]; omega

/-- Every point's block of a reshaped batch-norm vector of the convolution reads the argument's entry. -/
theorem blk6_apply (c : Dev nD) (t : Fin cfg1.N) (j : Fin 64) :
    (Gen.iblk1 (Gen.V3 m ρ) c 6 t : Vec Ideal S1x1x64 .f32) (ix3 0 0 j)
      = (m ((c : Thread nD τ).loc main_arg12) : S64.Idx → EReal) (ix1 j) := by
  obtain ⟨e0, e1, e2⟩ := index6 t
  rw [← V3_v27_apply m ρ c j]
  unfold Gen.iblk1
  rw [View.read_apply]
  show Gen.V3 m ρ c main_v27 _ = Gen.V3 m ρ c main_v27 _
  refine congrArg (Gen.V3 m ρ c main_v27) (funext fun a => Fin.ext ?_)
  match a with
  | ⟨0, _⟩ => show win1_6.index t (0 : Fin 3) * 1 + 1 * 0 = 0; rw [e0]
  | ⟨1, _⟩ => show win1_6.index t (1 : Fin 3) * 1 + 1 * 0 = 0; rw [e1]
  | ⟨2, _⟩ => show win1_6.index t (2 : Fin 3) * 64 + 1 * j.val = j.val; rw [e2]; omega

/-- Every point's block of the second linear layer's weight is the argument. -/
theorem blk7_apply (c : Dev nD) (t : Fin cfg1.N) (j : Fin 64) (o : Fin 64) :
    (Gen.iblk1 (Gen.V3 m ρ) c 7 t : Vec Ideal S64x64 .f32) (ix2 j o)
      = (m ((c : Thread nD τ).loc main_arg13) : S64x64.Idx → EReal) (ix2 j o) := by
  obtain ⟨e0, e1⟩ := index7 t
  rw [← V3_arg13 m ρ c]
  unfold Gen.iblk1
  rw [View.read_apply]
  show Gen.V3 m ρ c main_arg13 _ = Gen.V3 m ρ c main_arg13 _
  refine congrArg (Gen.V3 m ρ c main_arg13) (funext fun a => Fin.ext ?_)
  match a with
  | ⟨0, _⟩ => show win1_7.index t (0 : Fin 2) * 64 + 1 * j.val = j.val; rw [e0]; omega
  | ⟨1, _⟩ => show win1_7.index t (1 : Fin 2) * 64 + 1 * o.val = o.val; rw [e1]; omega

/-- Every point's block of a reshaped batch-norm vector of the second linear layer reads the argument's entry. -/
theorem blk8_apply (c : Dev nD) (t : Fin cfg1.N) (o : Fin 64) :
    (Gen.iblk1 (Gen.V3 m ρ) c 8 t : Vec Ideal S1x64 .f32) (ix2 0 o)
      = (m ((c : Thread nD τ).loc main_arg14) : S64.Idx → EReal) (ix1 o) := by
  obtain ⟨e0, e1⟩ := index8 t
  rw [← V3_v28_apply m ρ c o]
  unfold Gen.iblk1
  rw [View.read_apply]
  show Gen.V3 m ρ c main_v28 _ = Gen.V3 m ρ c main_v28 _
  refine congrArg (Gen.V3 m ρ c main_v28) (funext fun a => Fin.ext ?_)
  match a with
  | ⟨0, _⟩ => show win1_8.index t (0 : Fin 2) * 1 + 1 * 0 = 0; rw [e0]
  | ⟨1, _⟩ => show win1_8.index t (1 : Fin 2) * 64 + 1 * o.val = o.val; rw [e1]; omega

/-- Every point's block of a reshaped batch-norm vector of the second linear layer reads the argument's entry. -/
theorem blk9_apply (c : Dev nD) (t : Fin cfg1.N) (o : Fin 64) :
    (Gen.iblk1 (Gen.V3 m ρ) c 9 t : Vec Ideal S1x64 .f32) (ix2 0 o)
      = (m ((c : Thread nD τ).loc main_arg15) : S64.Idx → EReal) (ix1 o) := by
  obtain ⟨e0, e1⟩ := index9 t
  rw [← V3_v29_apply m ρ c o]
  unfold Gen.iblk1
  rw [View.read_apply]
  show Gen.V3 m ρ c main_v29 _ = Gen.V3 m ρ c main_v29 _
  refine congrArg (Gen.V3 m ρ c main_v29) (funext fun a => Fin.ext ?_)
  match a with
  | ⟨0, _⟩ => show win1_9.index t (0 : Fin 2) * 1 + 1 * 0 = 0; rw [e0]
  | ⟨1, _⟩ => show win1_9.index t (1 : Fin 2) * 64 + 1 * o.val = o.val; rw [e1]; omega

/-- Every point's block of a reshaped batch-norm vector of the second linear layer reads the argument's entry. -/
theorem blk10_apply (c : Dev nD) (t : Fin cfg1.N) (o : Fin 64) :
    (Gen.iblk1 (Gen.V3 m ρ) c 10 t : Vec Ideal S1x64 .f32) (ix2 0 o)
      = (m ((c : Thread nD τ).loc main_arg16) : S64.Idx → EReal) (ix1 o) := by
  obtain ⟨e0, e1⟩ := index10 t
  rw [← V3_v30_apply m ρ c o]
  unfold Gen.iblk1
  rw [View.read_apply]
  show Gen.V3 m ρ c main_v30 _ = Gen.V3 m ρ c main_v30 _
  refine congrArg (Gen.V3 m ρ c main_v30) (funext fun a => Fin.ext ?_)
  match a with
  | ⟨0, _⟩ => show win1_10.index t (0 : Fin 2) * 1 + 1 * 0 = 0; rw [e0]
  | ⟨1, _⟩ => show win1_10.index t (1 : Fin 2) * 64 + 1 * o.val = o.val; rw [e1]; omega

/-- Every point's block of a reshaped batch-norm vector of the second linear layer reads the argument's entry. -/
theorem blk11_apply (c : Dev nD) (t : Fin cfg1.N) (o : Fin 64) :
    (Gen.iblk1 (Gen.V3 m ρ) c 11 t : Vec Ideal S1x64 .f32) (ix2 0 o)
      = (m ((c : Thread nD τ).loc main_arg17) : S64.Idx → EReal) (ix1 o) := by
  obtain ⟨e0, e1⟩ := index11 t
  rw [← V3_v31_apply m ρ c o]
  unfold Gen.iblk1
  rw [View.read_apply]
  show Gen.V3 m ρ c main_v31 _ = Gen.V3 m ρ c main_v31 _
  refine congrArg (Gen.V3 m ρ c main_v31) (funext fun a => Fin.ext ?_)
  match a with
  | ⟨0, _⟩ => show win1_11.index t (0 : Fin 2) * 1 + 1 * 0 = 0; rw [e0]
  | ⟨1, _⟩ => show win1_11.index t (1 : Fin 2) * 64 + 1 * o.val = o.val; rw [e1]; omega

end Cert.KernelIdeal.Stage2

end
-- ==== Proof.K2Cover.lean ====
import proofs.«108654_j1623497638706_1_alg».proof.Proof.Gen.KernelIdeal.Frame
import Idealize.ShloMosaic.Lib.Pipeline.Value

/-!
  The second region writes its output array, 100000 rows of 64 channels, back in 100 blocks of 1000 rows:
  the point t writes the rows 1000·t … 1000·t + 999 and all 64 columns. So every index (r, o) of the array
  lies in the block of the point r / 1000, and every point writes its block back.
-/

namespace Cert.KernelIdeal.Stage2

open Idealize.ShloMosaic Idealize.ShloMosaic.TcCoe Cert.KernelIdeal Cert.KernelIdeal.Gen

/-- The output window's block index at the point t is (t, 0). -/
theorem out_index : ∀ t : Fin cfg1.N, win1_12.index t (0 : Fin 2) = t.val ∧ win1_12.index t (1 : Fin 2) = 0 :=
  (by decide +kernel : ∀ t : Fin grid1.N, _)

/-- An index of the output array is in the point t's block iff each coordinate is in the block's range on its axis. -/
theorem mem_out_blk (t : Fin cfg1.N) (i : S100000x64.Idx) :
    i ∈ ((cfg1.win 12).blk t).view.set ↔ ∀ a : Fin 2, win1_12.index t a * S1000x64.size a ≤ (i a).val ∧ (i a).val < win1_12.index t a * S1000x64.size a + S1000x64.size a := by
  show i ∈ ((View.whole main_v32).slice (win1_12.rect t)).set ↔ _
  rw [View.set_slice_whole, Rect.mem_set_unit]
  exact Iff.rfl

/-- Every index (r, o) of the output array is in the block that the point r / 1000 writes back. -/
theorem out_cover (i : S100000x64.Idx) :
    ∃ t : Fin cfg1.N, (cfg1.win 12).flush t = true ∧ i ∈ ((cfg1.win 12).blk t).view.set := by
  have hN : cfg1.N = 100 := Gen.N_1
  have hi0 : (i 0).val < 100000 := (i 0).isLt
  have hi1 : (i 1).val < 64 := (i 1).isLt
  have ht : (i 0).val / 1000 < cfg1.N := by rw [hN]; omega
  refine ⟨⟨(i 0).val / 1000, ht⟩, Gen.flush1_12 _, ?_⟩
  rw [mem_out_blk]
  intro a
  match a with
  | ⟨0, _⟩ =>
    show win1_12.index ⟨(i 0).val / 1000, ht⟩ (0 : Fin 2) * 1000 ≤ (i 0).val
      ∧ (i 0).val < win1_12.index ⟨(i 0).val / 1000, ht⟩ (0 : Fin 2) * 1000 + 1000
    rw [(out_index ⟨(i 0).val / 1000, ht⟩).1]
    show (i 0).val / 1000 * 1000 ≤ (i 0).val ∧ (i 0).val < (i 0).val / 1000 * 1000 + 1000
    omega
  | ⟨1, _⟩ =>
    show win1_12.index ⟨(i 0).val / 1000, ht⟩ (1 : Fin 2) * 64 ≤ (i 1).val
      ∧ (i 1).val < win1_12.index ⟨(i 0).val / 1000, ht⟩ (1 : Fin 2) * 64 + 64
    rw [(out_index ⟨(i 0).val / 1000, ht⟩).2]
    omega

end Cert.KernelIdeal.Stage2
-- ==== Proof.K2Array.lean ====
/-
  The second kernel region's result array is the network's second stage, whole.

  Point t of the region's grid writes back the 1000 rows t·1000 … t·1000 + 999 of the result.  Entry (r, o) of
  what it writes is the second stage at point t·1000 + r, channel o, of the arrays the region found: the grouped
  neighbour features, the residual, the convolution weight and the second linear layer's weight with their
  batch-norm vectors (the body's arithmetic on one block, and each block as rows of its array).  The 100 blocks
  tile the [100000, 64] array — row n lies in the block of point n / 1000 —, so after the last point the array
  holds the second stage at every point.
-/
import proofs.«108654_j1623497638706_1_alg».proof.Proof.Gen.KernelIdeal.Frame
import proofs.«108654_j1623497638706_1_alg».proof.Proof.Spec
import proofs.«108654_j1623497638706_1_alg».proof.Proof.K2Block
import proofs.«108654_j1623497638706_1_alg».proof.Proof.K2Reads
import proofs.«108654_j1623497638706_1_alg».proof.Proof.K2Cover
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Stage2

open Idealize.ShloMosaic Idealize.ShloMosaic.TcCoe Idealize.ShloMosaic.ValueIdx Cert.KernelIdeal Cert.KernelIdeal.Gen
open Idealize.ShloMosaic.StableHlo

variable (m : (ℓ : Loc nD τ sig) → Buf (Elt Ideal) ℓ) (ρ : Dev nD → PrngReg)

/-- The second stage of the arrays the region found, as the result array's intended contents. -/
abbrev target (c : Dev nD) : Spec.SN64.Idx → EReal :=
  Spec.stage2 (Gen.W3 (F := Ideal) m ρ c (Proc.devRef .tc main_v22)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Entry (r, o) of point t's output block sits at row t·1000 + r, column o of the result array. -/
theorem out_emb (t : Fin cfg1.N) (r : Fin 1000) (o : Fin 64) :
    (((cfg1.win 12).blk t).view.emb (ix2 r o) : S100000x64.Idx) = ix2 (row t r) o := by
  obtain ⟨e0, e1⟩ := out_index t
  funext a
  apply Fin.ext
  match a with
  | ⟨0, _⟩ => show win1_12.index t (0 : Fin 2) * 1000 + 1 * r.val = t.val * 1000 + r.val; rw [e0]; omega
  | ⟨1, _⟩ => show win1_12.index t (1 : Fin 2) * 64 + 1 * o.val = o.val; rw [e1]; omega

/-- What point t writes back is block t of the second stage. -/
theorem flushed_eq (c : Dev nD) (t : Fin cfg1.N) :
    (Gen.dat1 (Gen.V3 m ρ) c).flushed 12 t = ((cfg1.win 12).blk t).view.read (Elt Ideal) (target m ρ c) := by
  show (cfg1.win 12).cut (grid1.coords t) ((Gen.dat1 (Gen.V3 m ρ) c).after 12 t) = _
  rw [Gen.after1_12]
  funext y
  obtain ⟨r, o, rfl⟩ : ∃ (r : Fin 1000) (o : Fin 64), y = ix2 r o := ⟨y 0, y 1, eq_ix2 y⟩
  show Gen.out1_12 (F := Ideal) (Gen.iblk1 (Gen.V3 m ρ) c 0 t) (Gen.iblk1 (Gen.V3 m ρ) c 1 t) (Gen.iblk1 (Gen.V3 m ρ) c 2 t) (Gen.iblk1 (Gen.V3 m ρ) c 3 t) (Gen.iblk1 (Gen.V3 m ρ) c 4 t) (Gen.iblk1 (Gen.V3 m ρ) c 5 t) (Gen.iblk1 (Gen.V3 m ρ) c 6 t) (Gen.iblk1 (Gen.V3 m ρ) c 7 t) (Gen.iblk1 (Gen.V3 m ρ) c 8 t) (Gen.iblk1 (Gen.V3 m ρ) c 9 t) (Gen.iblk1 (Gen.V3 m ρ) c 10 t) (Gen.iblk1 (Gen.V3 m ρ) c 11 t) (ix2 r o)
    = target m ρ c (((cfg1.win 12).blk t).view.emb (ix2 r o))
  rw [out_emb t r o]
  show _ = Spec.stage2At (Gen.W3 (F := Ideal) m ρ c (Proc.devRef .tc main_v22)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (row t r) o
  exact block_value (Gen.W3 (F := Ideal) m ρ c (Proc.devRef .tc main_v22)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (Gen.iblk1 (Gen.V3 m ρ) c 0 t) (Gen.iblk1 (Gen.V3 m ρ) c 1 t) (Gen.iblk1 (Gen.V3 m ρ) c 2 t) (Gen.iblk1 (Gen.V3 m ρ) c 3 t) (Gen.iblk1 (Gen.V3 m ρ) c 4 t) (Gen.iblk1 (Gen.V3 m ρ) c 5 t) (Gen.iblk1 (Gen.V3 m ρ) c 6 t) (Gen.iblk1 (Gen.V3 m ρ) c 7 t) (Gen.iblk1 (Gen.V3 m ρ) c 8 t) (Gen.iblk1 (Gen.V3 m ρ) c 9 t) (Gen.iblk1 (Gen.V3 m ρ) c 10 t) (Gen.iblk1 (Gen.V3 m ρ) c 11 t)
    (row t r) r o
    (fun k ch => blk0_apply m ρ c t r k ch) (blk1_apply m ρ c t r o) (fun ch j => blk2_apply m ρ c t ch j)
    (fun j => blk3_apply m ρ c t j) (fun j => blk4_apply m ρ c t j) (fun j => blk5_apply m ρ c t j) (fun j => blk6_apply m ρ c t j)
    (fun j => blk7_apply m ρ c t j o)
    (blk8_apply m ρ c t o) (blk9_apply m ρ c t o) (blk10_apply m ρ c t o) (blk11_apply m ρ c t o)

/-- After the region's last point the result array holds the second stage at every point. -/
theorem result_array (c : Dev nD) : (Gen.dat1 (Gen.V3 m ρ) c).arrAt 12 cfg1.N = target m ρ c :=
  (Gen.dat1 (Gen.V3 m ρ) c).arrAt_eq_of_cover 12 (target m ρ c) (fun t _ => flushed_eq m ρ c t) out_cover

/-- THE SECOND REGION: at its exit the result array is the second stage of the grouped array the region found
    and of the launch's arguments. -/
theorem stage2_array (c : Dev nD) :
    Gen.W4 (F := Ideal) m ρ c (Proc.devRef .tc main_v32)
      = Spec.stage2 (Gen.W3 (F := Ideal) m ρ c (Proc.devRef .tc main_v22)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (Gen.W4_arr m ρ c 12).trans (result_array m ρ c)

end Cert.KernelIdeal.Stage2

end
-- ==== Proof.RefStage2.lean ====
import proofs.«108654_j1623497638706_1_alg».proof.Proof.Gen.ReferenceIdeal.Read
import proofs.«108654_j1623497638706_1_alg».proof.Proof.Spec

/-!
  Stage two of the reference program, read index by index, over the grouped array G[n, k, ·] (67 channels) that the
  gathers and the concatenation build; that array is never opened here.

  At the point n, the neighbour k and the channel j the host's chain
    dot_general (contracting the 67 channels) → subtract mean → multiply by (scale · rsqrt (variance + ε)) → add shift → maximum with zero
  is  relu (bn₂ j (∑ c, G[n, k, c] · conv_w[j, c])).  The reduce with a maximum body over the neighbours' axis, from −∞,
  is at (n, j) the fold of max over the 16 neighbours of those values.  The head is the second linear layer, its
  normalisation, the residual and the last rectifier.
-/

noncomputable section

namespace Cert.ReferenceIdeal.RefValue

open Cert.ReferenceIdeal Cert.ReferenceIdeal.Gen Idealize.ShloMosaic Idealize.ShloMosaic.ValueIdx

/-! ## The convolution, its normalisation and rectifier at (n, k, j) -/

/-- The convolution reads the grouped array at (n, k, c). -/
theorem lidx_v33 (n : Fin 100000) (k : Fin 16) (j : Fin 64) (c : Fin 67) :
    Read.lidx_main_v33 (ix3 n k j) c = ix3 n k c :=
  funext fun a => Fin.ext (by match a with | ⟨0, _⟩ => rfl | ⟨1, _⟩ => rfl | ⟨2, _⟩ => rfl)

/-- The convolution reads its weight at (j, c). -/
theorem ridx_v33 (n : Fin 100000) (k : Fin 16) (j : Fin 64) (c : Fin 67) :
    Read.ridx_main_v33 (ix3 n k j) c = ix2 j c :=
  funext fun a => Fin.ext (by match a with | ⟨0, _⟩ => rfl | ⟨1, _⟩ => rfl)

/-- A per-channel vector broadcast along points and neighbours is read at the channel: the running mean. -/
theorem idx_v34 (n : Fin 100000) (k : Fin 16) (j : Fin 64) :
    Read.idx_main_v34 (Read.idx_main_v35 (ix3 n k j)) = ix1 j :=
  funext fun a => Fin.ext (by match a with | ⟨0, _⟩ => rfl)

/-- The same for the scale factor. -/
theorem idx_v41 (n : Fin 100000) (k : Fin 16) (j : Fin 64) :
    Read.idx_main_v41 (Read.idx_main_v42 (ix3 n k j)) = ix1 j :=
  funext fun a => Fin.ext (by match a with | ⟨0, _⟩ => rfl)

/-- The same for the shift. -/
theorem idx_v44 (n : Fin 100000) (k : Fin 16) (j : Fin 64) :
    Read.idx_main_v44 (Read.idx_main_v45 (ix3 n k j)) = ix1 j :=
  funext fun a => Fin.ext (by match a with | ⟨0, _⟩ => rfl)

/-- The rectified, normalised convolution of the reference at the point n, the neighbour k and the channel j. -/
theorem conv_at (x0 : (⟨S100000x3, .f32⟩ : BufTy).Contents (Elt Ideal)) (x1 : (⟨S100000x64, .f32⟩ : BufTy).Contents (Elt Ideal)) (x2 : (⟨S100000x16, .i32⟩ : BufTy).Contents (Elt Ideal)) (x3 : (⟨S64x64, .f32⟩ : BufTy).Contents (Elt Ideal)) (x4 x5 x6 x7 : (⟨S64, .f32⟩ : BufTy).Contents (Elt Ideal))
    (x8 : (⟨S64x67, .f32⟩ : BufTy).Contents (Elt Ideal)) (x9 x10 x11 x12 : (⟨S64, .f32⟩ : BufTy).Contents (Elt Ideal)) (n : Fin 100000) (k : Fin 16) (j : Fin 64) :
    Read.val_main_v47 (F := Ideal) x0 x1 x2 x3 x4 x5 x6 x7 x8 x9 x10 x11 x12 (ix3 n k j)
      = Spec.relu (Spec.bn (x9 (ix1 j)) (x10 (ix1 j)) (x11 (ix1 j)) (x12 (ix1 j))
          (∑ c : Fin 67, Read.val_main_v32 (F := Ideal) x0 x1 x2 x3 x4 x5 x6 x7 (ix3 n k c) * x8 (ix2 j c))) := by
  rw [Read.val_main_v47_apply, Read.val_main_call1_v0_apply, Read.val_main_call1_cst_apply, Read.val_main_v46_apply,
    Read.val_main_v45_apply, Read.val_main_v44_apply, Read.val_main_v43_apply, Read.val_main_v42_apply, Read.val_main_v41_apply,
    Read.val_main_v40_apply, Read.val_main_v39_apply, Read.val_main_v38_apply, Read.val_main_v37_apply, Read.val_main_cst_3_apply,
    Read.val_main_v36_apply, Read.val_main_v35_apply, Read.val_main_v34_apply, Read.val_main_v33_apply]
  generalize Read.val_main_v32 (F := Ideal) x0 x1 x2 x3 x4 x5 x6 x7 = G
  simp only [lidx_v33, ridx_v33, idx_v34, idx_v41, idx_v44, Ideal.ofBits_def, Ideal.addf_def, Ideal.subf_def, Ideal.mulf_def,
    Ideal.maximumf_def, Ideal.hostUnary_rsqrt_def, Spec.relu, Spec.bn, Spec.eps]

/-! ## The maximum over the neighbours -/

/-- The reduced index (n, j) with the neighbour k put back on axis 1 is (n, k, j). -/
theorem lift_neighbour (h : S100000x16x64.Reduces [1] S100000x64) (n : Fin 100000) (j : Fin 64)
    (k : Fin (S100000x16x64.size 1)) : h.lift (ix2 n j) k = ix3 n (⟨k.val, k.isLt⟩ : Fin 16) j := by
  funext c; apply Fin.ext
  match c with
  | ⟨0, _⟩ => rfl
  | ⟨1, _⟩ => rfl
  | ⟨2, _⟩ => rfl

/-- From −∞ the host's reduce with a maximum body over the neighbours' axis is, at (n, j), the fold of max over the
    16 neighbours. -/
theorem reduce_max_at (y : FVec Ideal S100000x16x64 .f32) (n : Fin 100000) (j : Fin 64) :
    Host.reduce FloatOps.maximumf y (Read.val_main_cst_4 (F := Ideal)) reducesTo_S100000x16x64_S100000x64_d1 h_S_ (ix2 n j)
      = (Finset.univ : Finset (Fin 16)).fold max (Ideal.ofBits .f32 0xFF800000#32) (fun k => y (ix3 n k j)) := by
  have h : S100000x16x64.Reduces [1] S100000x64 :=
    ⟨reducesTo_S100000x16x64_S100000x64_d1.1, Nat.succ_pos 1, reducesTo_S100000x16x64_S100000x64_d1.2⟩
  rw [Host.reduce_eq_fold_single FloatOps.maximumf y _ reducesTo_S100000x16x64_S100000x64_d1 h h_S_]
  have hf : (y ∘ h.lift (ix2 n j)) = fun k : Fin 16 => y (ix3 n k j) := funext fun k => congrArg y (lift_neighbour h n j k)
  exact congrArg (fun f => Finset.fold max (Ideal.ofBits .f32 0xFF800000#32) f (Finset.univ : Finset (Fin 16))) hf

/-- The neighbourhood feature of the reference at the point n and the channel j. -/
theorem feat_at (x0 : (⟨S100000x3, .f32⟩ : BufTy).Contents (Elt Ideal)) (x1 : (⟨S100000x64, .f32⟩ : BufTy).Contents (Elt Ideal)) (x2 : (⟨S100000x16, .i32⟩ : BufTy).Contents (Elt Ideal)) (x3 : (⟨S64x64, .f32⟩ : BufTy).Contents (Elt Ideal)) (x4 x5 x6 x7 : (⟨S64, .f32⟩ : BufTy).Contents (Elt Ideal))
    (x8 : (⟨S64x67, .f32⟩ : BufTy).Contents (Elt Ideal)) (x9 x10 x11 x12 : (⟨S64, .f32⟩ : BufTy).Contents (Elt Ideal)) (n : Fin 100000) (j : Fin 64) :
    Read.val_main_v48 (F := Ideal) x0 x1 x2 x3 x4 x5 x6 x7 x8 x9 x10 x11 x12 (ix2 n j)
      = Spec.featAt (Read.val_main_v32 (F := Ideal) x0 x1 x2 x3 x4 x5 x6 x7) x8 x9 x10 x11 x12 n j := by
  unfold Read.val_main_v48
  rw [reduce_max_at]
  simp only [conv_at, Spec.featAt]

/-! ## The second linear layer, its normalisation, the residual and the last rectifier at (n, o) -/

/-- The second linear layer reads the features at (n, j). -/
theorem lidx_v49 (n : Fin 100000) (o : Fin 64) (j : Fin 64) :
    Read.lidx_main_v49 (ix2 n o) j = ix2 n j :=
  funext fun a => Fin.ext (by match a with | ⟨0, _⟩ => rfl | ⟨1, _⟩ => rfl)

/-- The second linear layer reads its weight at (j, o). -/
theorem ridx_v49 (n : Fin 100000) (o : Fin 64) (j : Fin 64) :
    Read.ridx_main_v49 (ix2 n o) j = ix2 j o :=
  funext fun a => Fin.ext (by match a with | ⟨0, _⟩ => rfl | ⟨1, _⟩ => rfl)

/-- A per-channel vector broadcast along the points is read at the channel: the running mean. -/
theorem idx_v50 (n : Fin 100000) (o : Fin 64) :
    Read.idx_main_v50 (Read.idx_main_v51 (ix2 n o)) = ix1 o :=
  funext fun a => Fin.ext (by match a with | ⟨0, _⟩ => rfl)

/-- The same for the scale factor. -/
theorem idx_v57 (n : Fin 100000) (o : Fin 64) :
    Read.idx_main_v57 (Read.idx_main_v58 (ix2 n o)) = ix1 o :=
  funext fun a => Fin.ext (by match a with | ⟨0, _⟩ => rfl)

/-- The same for the shift. -/
theorem idx_v60 (n : Fin 100000) (o : Fin 64) :
    Read.idx_main_v60 (Read.idx_main_v61 (ix2 n o)) = ix1 o :=
  funext fun a => Fin.ext (by match a with | ⟨0, _⟩ => rfl)

/-- Stage two of the reference at the point n and the channel o. -/
theorem stage2_at (x0 : (⟨S100000x3, .f32⟩ : BufTy).Contents (Elt Ideal)) (x1 : (⟨S100000x64, .f32⟩ : BufTy).Contents (Elt Ideal)) (x2 : (⟨S100000x16, .i32⟩ : BufTy).Contents (Elt Ideal)) (x3 : (⟨S64x64, .f32⟩ : BufTy).Contents (Elt Ideal)) (x4 x5 x6 x7 : (⟨S64, .f32⟩ : BufTy).Contents (Elt Ideal))
    (x8 : (⟨S64x67, .f32⟩ : BufTy).Contents (Elt Ideal)) (x9 x10 x11 x12 : (⟨S64, .f32⟩ : BufTy).Contents (Elt Ideal))
    (x13 : (⟨S64x64, .f32⟩ : BufTy).Contents (Elt Ideal)) (x14 x15 x16 x17 : (⟨S64, .f32⟩ : BufTy).Contents (Elt Ideal)) (n : Fin 100000) (o : Fin 64) :
    Read.val_main_v64 (F := Ideal) x0 x1 x2 x3 x4 x5 x6 x7 x8 x9 x10 x11 x12 x13 x14 x15 x16 x17 (ix2 n o)
      = Spec.stage2At (Read.val_main_v32 (F := Ideal) x0 x1 x2 x3 x4 x5 x6 x7) x1 x8 x9 x10 x11 x12 x13 x14 x15 x16 x17 n o := by
  rw [Read.val_main_v64_apply, Read.val_main_call2_v0_apply, Read.val_main_call2_cst_apply, Read.val_main_v63_apply,
    Read.val_main_v62_apply, Read.val_main_v61_apply, Read.val_main_v60_apply, Read.val_main_v59_apply, Read.val_main_v58_apply,
    Read.val_main_v57_apply, Read.val_main_v56_apply, Read.val_main_v55_apply, Read.val_main_v54_apply, Read.val_main_v53_apply,
    Read.val_main_cst_5_apply, Read.val_main_v52_apply, Read.val_main_v51_apply, Read.val_main_v50_apply, Read.val_main_v49_apply]
  simp only [lidx_v49, ridx_v49, idx_v50, idx_v57, idx_v60, feat_at]
  generalize Read.val_main_v32 (F := Ideal) x0 x1 x2 x3 x4 x5 x6 x7 = G
  simp only [Ideal.ofBits_def, Ideal.addf_def, Ideal.subf_def, Ideal.mulf_def,
    Ideal.maximumf_def, Ideal.hostUnary_rsqrt_def, Spec.stage2At, Spec.relu, Spec.bn, Spec.eps]

/-- Stage two of the reference is the specification's stage two of the grouped array. -/
theorem stage2_eq (x0 : (⟨S100000x3, .f32⟩ : BufTy).Contents (Elt Ideal)) (x1 : (⟨S100000x64, .f32⟩ : BufTy).Contents (Elt Ideal)) (x2 : (⟨S100000x16, .i32⟩ : BufTy).Contents (Elt Ideal)) (x3 : (⟨S64x64, .f32⟩ : BufTy).Contents (Elt Ideal)) (x4 x5 x6 x7 : (⟨S64, .f32⟩ : BufTy).Contents (Elt Ideal))
    (x8 : (⟨S64x67, .f32⟩ : BufTy).Contents (Elt Ideal)) (x9 x10 x11 x12 : (⟨S64, .f32⟩ : BufTy).Contents (Elt Ideal))
    (x13 : (⟨S64x64, .f32⟩ : BufTy).Contents (Elt Ideal)) (x14 x15 x16 x17 : (⟨S64, .f32⟩ : BufTy).Contents (Elt Ideal)) :
    Read.val_main_v64 (F := Ideal) x0 x1 x2 x3 x4 x5 x6 x7 x8 x9 x10 x11 x12 x13 x14 x15 x16 x17
      = Spec.stage2 (Read.val_main_v32 (F := Ideal) x0 x1 x2 x3 x4 x5 x6 x7) x1 x8 x9 x10 x11 x12 x13 x14 x15 x16 x17 := by
  funext i
  obtain ⟨n, o, rfl⟩ : ∃ (n : Fin 100000) (o : Fin 64), i = ix2 n o := ⟨i 0, i 1, eq_ix2 i⟩
  rw [stage2_at, Spec.stage2_ix2]

end Cert.ReferenceIdeal.RefValue

end
-- ==== Proof.lean ====
/-
  A point-cloud residual block: the Pallas program against its jnp reference, equal over the extended reals.

  For 100000 points with 64 features x, positions p and 16 neighbours each (idx), both programs compute
    h      = relu (bn₁ (x · w1))                                   (stage one, [100000, 64])
    G      = (p[idx] − p) ++ h[idx]                                  (the grouped array, [100000, 16, 67])
    f[n,j] = max over the 16 neighbours of relu (bn₂ (G[n,k,·] · conv_w[j,·]))
    out    = relu (bn₃ (f · w3) + x)                                (stage two, [100000, 64])
  (Spec.lean). The kernel program runs stage one in a first kernel region over blocks of 2000 rows, builds G by
  host operations, and runs stage two in a second region over blocks of 1000 rows, its convolution as one matrix
  product of the flattened [16000, 67] block with the transposed weight; the reference runs everything as host
  operations on whole arrays. At the ideal instance a change of float format is the identity, a matrix product
  into a zero accumulator is the plain sum, and the two maxima are the same fold from −∞; the grouping step is
  literally the same host operations on both sides, so it is never opened. No law that needs finite operands is
  used: the precondition is not opened.

  K1Pay / K1Array: the first region leaves stage one.  Mid: the host builds G from it.  K2Pay / K2Block / K2Inputs /
  K2Array: the second region leaves stage two of G.  KRun: the program's run with its result named.
  RefStage1 / RefStage2: the reference's stages are the same two functions.  Bridge: the two grouping steps are
  one term.  The idealization rewrote nothing, so `preserves` has nothing to state.
-/
import proofs.«108654_j1623497638706_1_alg».proof.Defs
import proofs.«108654_j1623497638706_1_alg».proof.Proof.Gen.Kernel
import proofs.«108654_j1623497638706_1_alg».proof.Proof.Gen.Kernel.Skeleton
import proofs.«108654_j1623497638706_1_alg».proof.Proof.Gen.Kernel.Launch
import proofs.«108654_j1623497638706_1_alg».proof.Proof.Gen.Kernel.Points
import proofs.«108654_j1623497638706_1_alg».proof.Proof.Gen.Kernel.Frame
import proofs.«108654_j1623497638706_1_alg».proof.Proof.Gen.KernelIdeal
import proofs.«108654_j1623497638706_1_alg».proof.Proof.Gen.KernelIdeal.Skeleton
import proofs.«108654_j1623497638706_1_alg».proof.Proof.Gen.KernelIdeal.Launch
import proofs.«108654_j1623497638706_1_alg».proof.Proof.Gen.KernelIdeal.Points
import proofs.«108654_j1623497638706_1_alg».proof.Proof.Gen.KernelIdeal.Frame
import proofs.«108654_j1623497638706_1_alg».proof.Proof.Gen.ReferenceIdeal
import proofs.«108654_j1623497638706_1_alg».proof.Proof.Gen.ReferenceIdeal.Run
import proofs.«108654_j1623497638706_1_alg».proof.Proof.Gen.ReferenceIdeal.Read
import proofs.«108654_j1623497638706_1_alg».proof.Proof.Gen.Pre_finite_inputs
import proofs.«108654_j1623497638706_1_alg».proof.Proof.Spec
import proofs.«108654_j1623497638706_1_alg».proof.Proof.KRun
import proofs.«108654_j1623497638706_1_alg».proof.Proof.Mid
import proofs.«108654_j1623497638706_1_alg».proof.Proof.Bridge
import proofs.«108654_j1623497638706_1_alg».proof.Proof.RefStage1
import proofs.«108654_j1623497638706_1_alg».proof.Proof.K1Array
import proofs.«108654_j1623497638706_1_alg».proof.Proof.K2Array
import proofs.«108654_j1623497638706_1_alg».proof.Proof.RefStage2
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the same array. The kernel program: the second region leaves stage two of the
    array it was given, which the host built by the grouping step from the first region's result, which is stage
    one. The reference: its last stage is stage two of its grouped array, which is the same grouping of its
    stage-one array. Every step is an identity of functions on the extended reals; no sum is rearranged and no
    factor moved, so finiteness of the inputs is not used. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Spec.stage2
      (Cert.KernelIdeal.Mid.grouped (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
        (Spec.stage1 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
      (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run (Cert.KernelIdeal.defs (F := Ideal)) _ _).mono (fun r h c => ⟨(h c).1.trans ?_, (h c).2⟩)
      (Cert.KernelIdeal.KRun.run (F := Ideal) m ρ)
    rw [Cert.KernelIdeal.Stage2.stage2_array, Cert.KernelIdeal.Mid.grouped_entry, Cert.KernelIdeal.K1.stage1_array]
  · refine (θ_run (Cert.ReferenceIdeal.defs (F := Ideal)) _ _).mono (fun r h c => ⟨(h c).1.trans ?_, (h c).2⟩)
      (Cert.ReferenceIdeal.Value.run (F := Ideal) m' ρ')
    refine (Cert.ReferenceIdeal.Read.val_main_v64_eq (F := Ideal) _ _ _ _ _ _ _ _ _ _ _ _ _ _ _ _ _ _).trans ?_
    rw [Cert.ReferenceIdeal.RefValue.stage2_eq, Cert.Proof.Bridge.grouped_ref, Cert.ReferenceIdeal.RefValue.stage1_eq]
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
